-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v90) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S1000000x6x4 : Shape := ⟨3, ![1000000, 6, 4]⟩
abbrev S_ : Shape := ⟨0, ![]⟩

class Facts : Prop where
  bcast_S_S1000000x6x4 : S_.BroadcastsInDim S1000000x6x4 (![] : Fin 0 → Fin S1000000x6x4.rank)
  reducesTo_S1000000x6x4_S_d0_1_2 : S1000000x6x4.ReducesTo [0, 1, 2] S_
  h_S_ : 0 < S_.numel

variable [Facts]

def fn {F : FTy → Type} [FloatOps F] (main_arg0 : FVec F S1000000x6x4 .f32) (main_arg1 : FVec F S1000000x6x4 .f32) : IVec S_ 1 :=
  let main_v0 : FVec F S1000000x6x4 .f32 := Host.absf main_arg0
  let main_cst : FVec F S_ .f32 := constant S_ .f32 0x7F800000#32
  let main_v1 : FVec F S1000000x6x4 .f32 := broadcastInDim S1000000x6x4 ![] bcast_S_S1000000x6x4 main_cst
  let main_v2 : IVec S1000000x6x4 1 := cmpf .olt main_v0 main_v1
  let main_c : IVec S_ 1 := constantI S_ 1 1#1
  let main_v3 : IVec S_ 1 := (fun x v => Host.reduce IntOp.andi x v reducesTo_S1000000x6x4_S_d0_1_2 h_S_) main_v2 main_c
  let main_v4 : FVec F S1000000x6x4 .f32 := Host.absf main_arg1
  let main_cst_0 : FVec F S_ .f32 := constant S_ .f32 0x7F800000#32
  let main_v5 : FVec F S1000000x6x4 .f32 := broadcastInDim S1000000x6x4 ![] bcast_S_S1000000x6x4 main_cst_0
  let main_v6 : IVec S1000000x6x4 1 := cmpf .olt main_v4 main_v5
  let main_c_1 : IVec S_ 1 := constantI S_ 1 1#1
  let main_v7 : IVec S_ 1 := (fun x v => Host.reduce IntOp.andi x v reducesTo_S1000000x6x4_S_d0_1_2 h_S_) main_v6 main_c_1
  let main_v8 : IVec S_ 1 := andi main_v3 main_v7
  main_v8
-- ==== Kernel.lean ====
abbrev S1000000x6x4 : Shape := ⟨3, ![1000000, 6, 4]⟩
abbrev S1x1 : Shape := ⟨2, ![1, 1]⟩
abbrev S1000x6x4 : Shape := ⟨3, ![1000, 6, 4]⟩
abbrev S1000x6x1 : Shape := ⟨3, ![1000, 6, 1]⟩
abbrev S1000x6 : Shape := ⟨2, ![1000, 6]⟩
abbrev S1000 : Shape := ⟨1, ![1000]⟩
abbrev S1000x1 : Shape := ⟨2, ![1000, 1]⟩
abbrev S1 : Shape := ⟨1, ![1]⟩

abbrev nBuf : Space → Nat
  | .hbm => 3
  | .vmem => 7
  | .smem => 0
  | _ => 0

abbrev bufTy : (tb : Table) → Fin (tcTables nBuf tb) → BufTy
  | .hbm, ⟨0, _⟩ => ⟨S1000000x6x4, .f32⟩
  | .hbm, ⟨1, _⟩ => ⟨S1000000x6x4, .f32⟩
  | .hbm, ⟨2, _⟩ => ⟨S1x1, .f32⟩
  | .local _ .vmem, ⟨0, _⟩ => ⟨S1000x6x4, .f32⟩
  | .local _ .vmem, ⟨1, _⟩ => ⟨S1000x6x4, .f32⟩
  | .local _ .vmem, ⟨2, _⟩ => ⟨S1000x6x4, .f32⟩
  | .local _ .vmem, ⟨3, _⟩ => ⟨S1000x6x4, .f32⟩
  | .local _ .vmem, ⟨4, _⟩ => ⟨S1x1, .f32⟩
  | .local _ .vmem, ⟨5, _⟩ => ⟨S1x1, .f32⟩
  | .local _ .vmem, ⟨6, _⟩ => ⟨S1x1, .f32⟩
  | _, _ => ⟨S1000000x6x4, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_scratch1 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨1, ![1000], ![false]⟩

def k0_cond2 (i : grid0.Coords) : BitVec 1 :=
  let arg0 : BitVec 32 := BitVec.ofNat 32 (i 0).val
  let c999_i32 : BitVec 32 := 999#32
  let v115 : BitVec 1 := Scalar.cmpi .eq arg0 c999_i32
  let v116 : BitVec 32 := Scalar.extui v115
  let c0_i32_34 : BitVec 32 := 0#32
  let v117 : BitVec 1 := Scalar.cmpi .ne v116 c0_i32_34
  v117

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1000x6x4 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1000x6x4 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

class Facts₀ : Prop where
  inb_S1x1_S1x1_0_0 : ∀ a, (![0, 0] : Fin 2 → Nat) a + S1x1.size a ≤ S1x1.size a
  h_S1x1 : 0 < S1x1.numel
  shapeCasts_S1x1_S1x1 : S1x1.ShapeCasts S1x1
  inb_S1000x6x4_S1000x6x4_0_0_0 : ∀ a, (![0, 0, 0] : Fin 3 → Nat) a + S1000x6x4.size a ≤ S1000x6x4.size a
  h_S1000x6x4 : 0 < S1000x6x4.numel
  slices_S1000x6x4_o0_0_0_S1000x6x1 : S1000x6x4.Slices ![0, 0, 0] S1000x6x1
  shapeCasts_S1000x6x1_S1000x6 : S1000x6x1.ShapeCasts S1000x6
  slices_S1000x6x4_o0_0_2_S1000x6x1 : S1000x6x4.Slices ![0, 0, 2] S1000x6x1
  slices_S1000x6x4_o0_0_1_S1000x6x1 : S1000x6x4.Slices ![0, 0, 1] S1000x6x1
  slices_S1000x6x4_o0_0_3_S1000x6x1 : S1000x6x4.Slices ![0, 0, 3] S1000x6x1
  reduces_S1000x6x4_S1000x6 : S1000x6x4.Reduces [2] S1000x6
  natLt_1_32 : 1 < 32
  reduces_S1000x6_S1000 : S1000x6.Reduces [1] S1000
  shapeCasts_S1000_S1000x1 : S1000.ShapeCasts S1000x1
  reduces_S1000x1_S1 : S1000x1.Reduces [0] S1
  shapeCasts_S1_S1x1 : S1.ShapeCasts S1x1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1000x6x4.size a ≤ S1000000x6x4.size a
  hwx0_0 : ∀ i : grid0.Coords, EltTy.bits .f32 = 32 ∨ (Rect.block (s := S1000000x6x4) S1000x6x4.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1000x6x4.size a ≤ S1000000x6x4.size a
  hwx0_1 : ∀ i : grid0.Coords, EltTy.bits .f32 = 32 ∨ (Rect.block (s := S1000000x6x4) S1000x6x4.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x1.size a ≤ S1x1.size a
  hwx0_2 : ∀ i : grid0.Coords, EltTy.bits .f32 = 32 ∨ (Rect.block (s := S1x1) S1x1.size (cc0_transform_2 i) (hinb0_2 i)).WholeWords (EltTy.packing .f32)

variable [Facts₀]

abbrev win0_0 : Pipeline.Window sig grid0 :=
  Pipeline.Window.ofSpec (Memref.whole main_arg0) S1000x6x4.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1000x6x4.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1x1.size cc0_transform_2 reads0_2 true true 1 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev idle0 : Fin 3 → grid0.Coords → Bool := fun | 0 => fun _ => false | 1 => fun _ => false | 2 => fun i => !(k0_cond2 i == 1#1) | ⟨_ + 3, h⟩ => absurd h (Nat.not_lt.2 (Nat.le_add_left _ _))

class Facts : Prop extends Facts₀ where

variable [Facts]
-- ==== ReferenceIdeal.lean ====
abbrev S1000000x6x4 : Shape := ⟨3, ![1000000, 6, 4]⟩
abbrev S_ : Shape := ⟨0, ![]⟩
abbrev S1000000x6 : Shape := ⟨2, ![1000000, 6]⟩
abbrev S1000000x6x1 : Shape := ⟨3, ![1000000, 6, 1]⟩
abbrev S1x1 : Shape := ⟨2, ![1, 1]⟩

abbrev nBuf : Space → Nat
  | .hbm => 116
  | .vmem => 0
  | .smem => 0
  | _ => 0

abbrev bufTy : (tb : Table) → Fin (tcTables nBuf tb) → BufTy
  | .hbm, ⟨0, _⟩ => ⟨S1000000x6x4, .f32⟩
  | .hbm, ⟨1, _⟩ => ⟨S1000000x6x4, .f32⟩
  | .hbm, ⟨2, _⟩ => ⟨S_, .f32⟩
  | .hbm, ⟨3, _⟩ => ⟨S1000000x6x4, .f32⟩
  | .hbm, ⟨4, _⟩ => ⟨S1000000x6x4, .i1⟩
  | .hbm, ⟨5, _⟩ => ⟨S_, .i1⟩
  | .hbm, ⟨6, _⟩ => ⟨S1000000x6, .i1⟩
  | .hbm, ⟨7, _⟩ => ⟨S1000000x6, .i1⟩
  | .hbm, ⟨8, _⟩ => ⟨S1000000x6x1, .f32⟩
  | .hbm, ⟨9, _⟩ => ⟨S1000000x6, .f32⟩
  | .hbm, ⟨10, _⟩ => ⟨S1000000x6x1, .f32⟩
  | .hbm, ⟨11, _⟩ => ⟨S1000000x6, .f32⟩
  | .hbm, ⟨12, _⟩ => ⟨S_, .f32⟩
  | .hbm, ⟨13, _⟩ => ⟨S1000000x6, .f32⟩
  | .hbm, ⟨14, _⟩ => ⟨S1000000x6, .f32⟩
  | .hbm, ⟨15, _⟩ => ⟨S1000000x6, .f32⟩
  | .hbm, ⟨16, _⟩ => ⟨S1000000x6x1, .f32⟩
  | .hbm, ⟨17, _⟩ => ⟨S1000000x6, .f32⟩
  | .hbm, ⟨18, _⟩ => ⟨S1000000x6x1, .f32⟩
  | .hbm, ⟨19, _⟩ => ⟨S1000000x6, .f32⟩
  | .hbm, ⟨20, _⟩ => ⟨S_, .f32⟩
  | .hbm, ⟨21, _⟩ => ⟨S1000000x6, .f32⟩
  | .hbm, ⟨22, _⟩ => ⟨S1000000x6, .f32⟩
  | .hbm, ⟨23, _⟩ => ⟨S1000000x6, .f32⟩
  | .hbm, ⟨24, _⟩ => ⟨S1000000x6x1, .f32⟩
  | .hbm, ⟨25, _⟩ => ⟨S1000000x6, .f32⟩
  | .hbm, ⟨26, _⟩ => ⟨S1000000x6x1, .f32⟩
  | .hbm, ⟨27, _⟩ => ⟨S1000000x6, .f32⟩
  | .hbm, ⟨28, _⟩ => ⟨S_, .f32⟩
  | .hbm, ⟨29, _⟩ => ⟨S1000000x6, .f32⟩
  | .hbm, ⟨30, _⟩ => ⟨S1000000x6, .f32⟩
  | .hbm, ⟨31, _⟩ => ⟨S1000000x6, .f32⟩
  | .hbm, ⟨32, _⟩ => ⟨S1000000x6x1, .f32⟩
  | .hbm, ⟨33, _⟩ => ⟨S1000000x6, .f32⟩
  | .hbm, ⟨34, _⟩ => ⟨S1000000x6x1, .f32⟩
  | .hbm, ⟨35, _⟩ => ⟨S1000000x6, .f32⟩
  | .hbm, ⟨36, _⟩ => ⟨S_, .f32⟩
  | .hbm, ⟨37, _⟩ => ⟨S1000000x6, .f32⟩
  | .hbm, ⟨38, _⟩ => ⟨S1000000x6, .f32⟩
  | .hbm, ⟨39, _⟩ => ⟨S1000000x6, .f32⟩
  | .hbm, ⟨40, _⟩ => ⟨S1000000x6x1, .f32⟩
  | .hbm, ⟨41, _⟩ => ⟨S1000000x6, .f32⟩
  | .hbm, ⟨42, _⟩ => ⟨S1000000x6x1, .f32⟩
  | .hbm, ⟨43, _⟩ => ⟨S1000000x6, .f32⟩
  | .hbm, ⟨44, _⟩ => ⟨S_, .f32⟩
  | .hbm, ⟨45, _⟩ => ⟨S1000000x6, .f32⟩
  | .hbm, ⟨46, _⟩ => ⟨S1000000x6, .f32⟩
  | .hbm, ⟨47, _⟩ => ⟨S1000000x6, .f32⟩
  | .hbm, ⟨48, _⟩ => ⟨S1000000x6x1, .f32⟩
  | .hbm, ⟨49, _⟩ => ⟨S1000000x6, .f32⟩
  | .hbm, ⟨50, _⟩ => ⟨S1000000x6x1, .f32⟩
  | .hbm, ⟨51, _⟩ => ⟨S1000000x6, .f32⟩
  | .hbm, ⟨52, _⟩ => ⟨S_, .f32⟩
  | .hbm, ⟨53, _⟩ => ⟨S1000000x6, .f32⟩
  | .hbm, ⟨54, _⟩ => ⟨S1000000x6, .f32⟩
  | .hbm, ⟨55, _⟩ => ⟨S1000000x6, .f32⟩
  | .hbm, ⟨56, _⟩ => ⟨S1000000x6x1, .f32⟩
  | .hbm, ⟨57, _⟩ => ⟨S1000000x6, .f32⟩
  | .hbm, ⟨58, _⟩ => ⟨S1000000x6x1, .f32⟩
  | .hbm, ⟨59, _⟩ => ⟨S1000000x6, .f32⟩
  | .hbm, ⟨60, _⟩ => ⟨S_, .f32⟩
  | .hbm, ⟨61, _⟩ => ⟨S1000000x6, .f32⟩
  | .hbm, ⟨62, _⟩ => ⟨S1000000x6, .f32⟩
  | .hbm, ⟨63, _⟩ => ⟨S1000000x6, .f32⟩
  | .hbm, ⟨64, _⟩ => ⟨S1000000x6x1, .f32⟩
  | .hbm, ⟨65, _⟩ => ⟨S1000000x6, .f32⟩
  | .hbm, ⟨66, _⟩ => ⟨S1000000x6x1, .f32⟩
  | .hbm, ⟨67, _⟩ => ⟨S1000000x6, .f32⟩
  | .hbm, ⟨68, _⟩ => ⟨S_, .f32⟩
  | .hbm, ⟨69, _⟩ => ⟨S1000000x6, .f32⟩
  | .hbm, ⟨70, _⟩ => ⟨S1000000x6, .f32⟩
  | .hbm, ⟨71, _⟩ => ⟨S1000000x6, .f32⟩
  | .hbm, ⟨72, _⟩ => ⟨S1000000x6, .f32⟩
  | .hbm, ⟨73, _⟩ => ⟨S1000000x6, .f32⟩
  | .hbm, ⟨74, _⟩ => ⟨S1000000x6, .f32⟩
  | .hbm, ⟨75, _⟩ => ⟨S1000000x6, .f32⟩
  | .hbm, ⟨76, _⟩ => ⟨S1000000x6, .f32⟩
  | .hbm, ⟨77, _⟩ => ⟨S_, .i32⟩
  | .hbm, ⟨78, _⟩ => ⟨S_, .f32⟩
  | .hbm, ⟨79, _⟩ => ⟨S1000000x6, .f32⟩
  | .hbm, ⟨80, _⟩ => ⟨S1000000x6, .f32⟩
  | .hbm, ⟨81, _⟩ => ⟨S1000000x6, .f32⟩
  | .hbm, ⟨82, _⟩ => ⟨S_, .i32⟩
  | .hbm, ⟨83, _⟩ => ⟨S_, .f32⟩
  | .hbm, ⟨84, _⟩ => ⟨S1000000x6, .f32⟩
  | .hbm, ⟨85, _⟩ => ⟨S1000000x6, .f32⟩
  | .hbm, ⟨86, _⟩ => ⟨S1000000x6, .f32⟩
  | .hbm, ⟨87, _⟩ => ⟨S1000000x6, .f32⟩
  | .hbm, ⟨88, _⟩ => ⟨S1000000x6, .f32⟩
  | .hbm, ⟨89, _⟩ => ⟨S1000000x6, .f32⟩
  | .hbm, ⟨90, _⟩ => ⟨S1000000x6, .f32⟩
  | .hbm, ⟨91, _⟩ => ⟨S1000000x6, .f32⟩
  | .hbm, ⟨92, _⟩ => ⟨S1000000x6, .f32⟩
  | .hbm, ⟨93, _⟩ => ⟨S1000000x6, .f32⟩
  | .hbm, ⟨94, _⟩ => ⟨S1000000x6, .f32⟩
  | .hbm, ⟨95, _⟩ => ⟨S1000000x6, .f32⟩
  | .hbm, ⟨96, _⟩ => ⟨S1000000x6, .f32⟩
  | .hbm, ⟨97, _⟩ => ⟨S_, .f32⟩
  | .hbm, ⟨98, _⟩ => ⟨S1000000x6, .f32⟩
  | .hbm, ⟨99, _⟩ => ⟨S1000000x6, .f32⟩
  | .hbm, ⟨100, _⟩ => ⟨S1000000x6, .f32⟩
  | .hbm, ⟨101, _⟩ => ⟨S1000000x6, .f32⟩
  | .hbm, ⟨102, _⟩ => ⟨S1000000x6, .f32⟩
  | .hbm, ⟨103, _⟩ => ⟨S_, .f32⟩
  | .hbm, ⟨104, _⟩ => ⟨S_, .f32⟩
  | .hbm, ⟨105, _⟩ => ⟨S_, .f32⟩
  | .hbm, ⟨106, _⟩ => ⟨S_, .f32⟩
  | .hbm, ⟨107, _⟩ => ⟨S_, .f32⟩
  | .hbm, ⟨108, _⟩ => ⟨S_, .i1⟩
  | .hbm, ⟨109, _⟩ => ⟨S_, .f32⟩
  | .hbm, ⟨110, _⟩ => ⟨S_, .f32⟩
  | .hbm, ⟨111, _⟩ => ⟨S_, .f32⟩
  | .hbm, ⟨112, _⟩ => ⟨S_, .f32⟩
  | .hbm, ⟨113, _⟩ => ⟨S_, .f32⟩
  | .hbm, ⟨114, _⟩ => ⟨S_, .f32⟩
  | .hbm, ⟨115, _⟩ => ⟨S1x1, .f32⟩
  | _, _ => ⟨S1000000x6x4, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_c : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_cst_0 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_cst_1 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_cst_2 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_v28 : Ref sig .tc := ⟨.hbm, 35, rfl⟩
abbrev main_cst_3 : Ref sig .tc := ⟨.hbm, 36, rfl⟩
abbrev main_v29 : Ref sig .tc := ⟨.hbm, 37, rfl⟩
abbrev main_v30 : Ref sig .tc := ⟨.hbm, 38, rfl⟩
abbrev main_v31 : Ref sig .tc := ⟨.hbm, 39, rfl⟩
abbrev main_v32 : Ref sig .tc := ⟨.hbm, 40, rfl⟩
abbrev main_v33 : Ref sig .tc := ⟨.hbm, 41, rfl⟩
abbrev main_v34 : Ref sig .tc := ⟨.hbm, 42, rfl⟩
abbrev main_v35 : Ref sig .tc := ⟨.hbm, 43, rfl⟩
abbrev main_cst_4 : Ref sig .tc := ⟨.hbm, 44, rfl⟩
abbrev main_v36 : Ref sig .tc := ⟨.hbm, 45, rfl⟩
abbrev main_v37 : Ref sig .tc := ⟨.hbm, 46, rfl⟩
abbrev main_v38 : Ref sig .tc := ⟨.hbm, 47, rfl⟩
abbrev main_v39 : Ref sig .tc := ⟨.hbm, 48, rfl⟩
abbrev main_v40 : Ref sig .tc := ⟨.hbm, 49, rfl⟩
abbrev main_v41 : Ref sig .tc := ⟨.hbm, 50, rfl⟩
abbrev main_v42 : Ref sig .tc := ⟨.hbm, 51, rfl⟩
abbrev main_cst_5 : Ref sig .tc := ⟨.hbm, 52, rfl⟩
abbrev main_v43 : Ref sig .tc := ⟨.hbm, 53, rfl⟩
abbrev main_v44 : Ref sig .tc := ⟨.hbm, 54, rfl⟩
abbrev main_v45 : Ref sig .tc := ⟨.hbm, 55, rfl⟩
abbrev main_v46 : Ref sig .tc := ⟨.hbm, 56, rfl⟩
abbrev main_v47 : Ref sig .tc := ⟨.hbm, 57, rfl⟩
abbrev main_v48 : Ref sig .tc := ⟨.hbm, 58, rfl⟩
abbrev main_v49 : Ref sig .tc := ⟨.hbm, 59, rfl⟩
abbrev main_cst_6 : Ref sig .tc := ⟨.hbm, 60, rfl⟩
abbrev main_v50 : Ref sig .tc := ⟨.hbm, 61, rfl⟩
abbrev main_v51 : Ref sig .tc := ⟨.hbm, 62, rfl⟩
abbrev main_v52 : Ref sig .tc := ⟨.hbm, 63, rfl⟩
abbrev main_v53 : Ref sig .tc := ⟨.hbm, 64, rfl⟩
abbrev main_v54 : Ref sig .tc := ⟨.hbm, 65, rfl⟩
abbrev main_v55 : Ref sig .tc := ⟨.hbm, 66, rfl⟩
abbrev main_v56 : Ref sig .tc := ⟨.hbm, 67, rfl⟩
abbrev main_cst_7 : Ref sig .tc := ⟨.hbm, 68, rfl⟩
abbrev main_v57 : Ref sig .tc := ⟨.hbm, 69, rfl⟩
abbrev main_v58 : Ref sig .tc := ⟨.hbm, 70, rfl⟩
abbrev main_v59 : Ref sig .tc := ⟨.hbm, 71, rfl⟩
abbrev main_v60 : Ref sig .tc := ⟨.hbm, 72, rfl⟩
abbrev main_v61 : Ref sig .tc := ⟨.hbm, 73, rfl⟩
abbrev main_v62 : Ref sig .tc := ⟨.hbm, 74, rfl⟩
abbrev main_v63 : Ref sig .tc := ⟨.hbm, 75, rfl⟩
abbrev main_v64 : Ref sig .tc := ⟨.hbm, 76, rfl⟩
abbrev main_c_8 : Ref sig .tc := ⟨.hbm, 77, rfl⟩
abbrev main_call0_v0 : Ref sig .tc := ⟨.hbm, 78, rfl⟩
abbrev main_call0_v1 : Ref sig .tc := ⟨.hbm, 79, rfl⟩
abbrev main_v65 : Ref sig .tc := ⟨.hbm, 80, rfl⟩
abbrev main_v66 : Ref sig .tc := ⟨.hbm, 81, rfl⟩
abbrev main_c_9 : Ref sig .tc := ⟨.hbm, 82, rfl⟩
abbrev main_call1_v0 : Ref sig .tc := ⟨.hbm, 83, rfl⟩
abbrev main_call1_v1 : Ref sig .tc := ⟨.hbm, 84, rfl⟩
abbrev main_v67 : Ref sig .tc := ⟨.hbm, 85, rfl⟩
abbrev main_v68 : Ref sig .tc := ⟨.hbm, 86, rfl⟩
abbrev main_v69 : Ref sig .tc := ⟨.hbm, 87, rfl⟩
abbrev main_v70 : Ref sig .tc := ⟨.hbm, 88, rfl⟩
abbrev main_v71 : Ref sig .tc := ⟨.hbm, 89, rfl⟩
abbrev main_v72 : Ref sig .tc := ⟨.hbm, 90, rfl⟩
abbrev main_v73 : Ref sig .tc := ⟨.hbm, 91, rfl⟩
abbrev main_v74 : Ref sig .tc := ⟨.hbm, 92, rfl⟩
abbrev main_v75 : Ref sig .tc := ⟨.hbm, 93, rfl⟩
abbrev main_v76 : Ref sig .tc := ⟨.hbm, 94, rfl⟩
abbrev main_v77 : Ref sig .tc := ⟨.hbm, 95, rfl⟩
abbrev main_v78 : Ref sig .tc := ⟨.hbm, 96, rfl⟩
abbrev main_cst_10 : Ref sig .tc := ⟨.hbm, 97, rfl⟩
abbrev main_v79 : Ref sig .tc := ⟨.hbm, 98, rfl⟩
abbrev main_v80 : Ref sig .tc := ⟨.hbm, 99, rfl⟩
abbrev main_v81 : Ref sig .tc := ⟨.hbm, 100, rfl⟩
abbrev main_v82 : Ref sig .tc := ⟨.hbm, 101, rfl⟩
abbrev main_v83 : Ref sig .tc := ⟨.hbm, 102, rfl⟩
abbrev main_cst_11 : Ref sig .tc := ⟨.hbm, 103, rfl⟩
abbrev main_v84 : Ref sig .tc := ⟨.hbm, 104, rfl⟩
abbrev main_cst_12 : Ref sig .tc := ⟨.hbm, 105, rfl⟩
abbrev main_v85 : Ref sig .tc := ⟨.hbm, 106, rfl⟩
abbrev main_cst_13 : Ref sig .tc := ⟨.hbm, 107, rfl⟩
abbrev main_v86 : Ref sig .tc := ⟨.hbm, 108, rfl⟩
abbrev main_cst_14 : Ref sig .tc := ⟨.hbm, 109, rfl⟩
abbrev main_v87 : Ref sig .tc := ⟨.hbm, 110, rfl⟩
abbrev main_v88 : Ref sig .tc := ⟨.hbm, 111, rfl⟩
abbrev main_cst_15 : Ref sig .tc := ⟨.hbm, 112, rfl⟩
abbrev main_call2_v0 : Ref sig .tc := ⟨.hbm, 113, rfl⟩
abbrev main_v89 : Ref sig .tc := ⟨.hbm, 114, rfl⟩
abbrev main_v90 : Ref sig .tc := ⟨.hbm, 115, rfl⟩

abbrev nD : Nat := 1
abbrev τ : Topo := Topo.v7x

variable {F : FTy → Type} [FloatOps F]

class Facts₀ : Prop where
  bcast_S_S1000000x6x4 : S_.BroadcastsInDim S1000000x6x4 (![] : Fin 0 → Fin S1000000x6x4.rank)
  reducesTo_S1000000x6x4_S1000000x6_d2 : S1000000x6x4.ReducesTo [2] S1000000x6
  h_S_ : 0 < S_.numel
  slices_S1000000x6x4_S1000000x6x1_0_0_0 : S1000000x6x4.Slices ![0, 0, 0] S1000000x6x1
  shapeCasts_S1000000x6x1_S1000000x6 : S1000000x6x1.ShapeCasts S1000000x6
  slices_S1000000x6x4_S1000000x6x1_0_0_2 : S1000000x6x4.Slices ![0, 0, 2] S1000000x6x1
  bcast_S_S1000000x6 : S_.BroadcastsInDim S1000000x6 (![] : Fin 0 → Fin S1000000x6.rank)
  slices_S1000000x6x4_S1000000x6x1_0_0_1 : S1000000x6x4.Slices ![0, 0, 1] S1000000x6x1
  slices_S1000000x6x4_S1000000x6x1_0_0_3 : S1000000x6x4.Slices ![0, 0, 3] S1000000x6x1
  reducesTo_S1000000x6_S_d0_1 : S1000000x6.ReducesTo [0, 1] S_
  shapeCasts_S_S1x1 : S_.ShapeCasts S1x1

variable [Facts₀]

class Facts : Prop extends Facts₀ where

variable [Facts]
-- ==== Proof.BoxSpec.lean ====
/-
  The mean intersection-over-union of a batch of boxes, as one function of the two argument arrays on the extended reals.

  A box is four numbers (cx, cy, w, h): a centre and two extents. Its edges are cx ∓ w·½ and cy ∓ h·½. For a predicted box
  and a truth box the overlap is max(0, min of the right edges − max of the left edges) times the same vertically; the
  ratio is overlap / (|area of the one| + |area of the other| − overlap + ε). A truth box whose four numbers all equal
  −1 is a sentinel and does not count: its ratio is multiplied by 0, every other box's by 1. The result is the sum of the
  counted ratios divided by max(number of counted boxes, 1) when that number is positive, and 0 otherwise.

  Nothing here needs the inputs to be finite: the two programs compute this same expression of the same entries, and they
  differ only in how the sums are grouped (addition of extended reals is commutative and associative), in writing w·½
  or w / 2 (equal for every extended real, the infinities included), and in how "all four equal −1" is decided.
-/
import Idealize.ShloMosaic.PureOps.Ideal
import Idealize.ShloMosaic.PureOps.Ideal.Laws
import Idealize.ShloMosaic.Lib.ValueIdx

noncomputable section

open scoped BigOperators

namespace Cert.BoxSpec

open Idealize.ShloMosaic Idealize.ShloMosaic.ValueIdx

/-! ## The float constants the two programs spell, as extended reals -/

abbrev zeroF : EReal := Ideal.ofBits .f32 0x00000000#32
abbrev oneF : EReal := Ideal.ofBits .f32 0x3F800000#32
abbrev halfF : EReal := Ideal.ofBits .f32 0x3F000000#32
abbrev twoF : EReal := Ideal.ofBits .f32 0x40000000#32
abbrev epsF : EReal := Ideal.ofBits .f32 0x358637BD#32
abbrev sentinelF : EReal := Ideal.ofBits .f32 0xBF800000#32
abbrev topF : EReal := Ideal.ofBits .f32 0x7F800000#32

theorem zeroF_eq : zeroF = 0 := Ideal.ofBits_zero_f32
theorem oneF_eq : oneF = 1 := by simp [oneF, Ideal.ofBits, Ideal.ieee, -EReal.coe_mul]; norm_num
theorem topF_eq : topF = ⊤ := by simp [topF, Ideal.ofBits, Ideal.ieee]
theorem halfF_eq : halfF = ((1 / 2 : ℝ) : EReal) := by simp [halfF, Ideal.ofBits, Ideal.ieee, -EReal.coe_mul]; norm_num
theorem twoF_eq : twoF = ((2 : ℝ) : EReal) := by simp [twoF, Ideal.ofBits, Ideal.ieee, -EReal.coe_mul]; norm_num

/-- Dividing by 2 is multiplying by ½, for every extended real. -/
theorem div_two (w : EReal) : Ideal.div w twoF = w * halfF := by
  rw [twoF_eq, halfF_eq]; exact Ideal.div_coe (by norm_num) w

/-- The integer word 0 read as a float is 0. -/
theorem sitofp_zero : (((0#32 : BitVec 32).toInt : ℝ) : EReal) = zeroF := by
  rw [zeroF_eq]; simp

/-! ## One box against one box -/

/-- The lower edge of a box along one axis: centre minus half the extent. -/
def lo (c w : EReal) : EReal := c - w * halfF
/-- The upper edge: centre plus half the extent. -/
def hi (c w : EReal) : EReal := c + w * halfF

/-- The overlap area of two boxes given by their edges (x1, y1, x2, y2). -/
def overlap (px1 py1 px2 py2 tx1 ty1 tx2 ty2 : EReal) : EReal :=
  max zeroF (min px2 tx2 - max px1 tx1) * max zeroF (min py2 ty2 - max py1 ty1)

/-- The absolute value, as the programs take it. -/
def absE (a : EReal) : EReal := max a (-a)

/-- Intersection over union from the edges. -/
def iouEdges (px1 py1 px2 py2 tx1 ty1 tx2 ty2 : EReal) : EReal :=
  Ideal.div (overlap px1 py1 px2 py2 tx1 ty1 tx2 ty2)
    (absE ((px2 - px1) * (py2 - py1)) + absE ((tx2 - tx1) * (ty2 - ty1)) - overlap px1 py1 px2 py2 tx1 ty1 tx2 ty2 + epsF)

/-- Intersection over union of a predicted box (p0, p1, p2, p3) and a truth box (t0, t1, t2, t3), centre and extents. -/
def iouBox (p0 p1 p2 p3 t0 t1 t2 t3 : EReal) : EReal :=
  iouEdges (lo p0 p2) (lo p1 p3) (hi p0 p2) (hi p1 p3) (lo t0 t2) (lo t1 t3) (hi t0 t2) (hi t1 t3)

/-- "This number is the sentinel −1", as a bit. -/
def isSentinel (t : EReal) : BitVec 1 := Ideal.cmp .oeq t sentinelF

/-- From the four bits "entry k is the sentinel": 0 when all four are set (the box does not count), 1 otherwise. -/
def countBits (b0 b1 b2 b3 : BitVec 1) : EReal :=
  (((~~~(IntOp.andi b0 (IntOp.andi b1 (IntOp.andi b2 (IntOp.andi b3 1#1))))).toNat : ℝ) : EReal)

/-- The weight of a truth box: 0 for the sentinel box (−1, −1, −1, −1), 1 for any other. -/
def weightBox (t0 t1 t2 t3 : EReal) : EReal := countBits (isSentinel t0) (isSentinel t1) (isSentinel t2) (isSentinel t3)

/-- The same weight decided through a minimum: each bit as the number 1 or 0, the least of the four (from +∞) compared with
    0, the answer negated and read as an integer. -/
theorem weight_by_min (b0 b1 b2 b3 : BitVec 1) :
    (((BitVec.setWidth 32 (IntOp.xori (Ideal.cmp .ogt
        (min (Scalar.select b0 oneF zeroF) (min (Scalar.select b1 oneF zeroF) (min (Scalar.select b2 oneF zeroF)
          (min (Scalar.select b3 oneF zeroF) topF)))) zeroF) 1#1)).toInt : ℝ) : EReal)
      = countBits b0 b1 b2 b3 := by
  rcases BitVec.eq_zero_or_eq_one b0 with h0 | h0 <;> rcases BitVec.eq_zero_or_eq_one b1 with h1 | h1 <;>
  rcases BitVec.eq_zero_or_eq_one b2 with h2 | h2 <;> rcases BitVec.eq_zero_or_eq_one b3 with h3 | h3 <;>
  subst h0 h1 h2 h3 <;>
  simp [countBits, Scalar.select, Ideal.cmp, oneF_eq, zeroF_eq, topF_eq, IntOp.andi, IntOp.xori]

/-- A fold of a commutative, associative operation over four positions, written out. -/
theorem fold_four {α : Type} (op : α → α → α) [Std.Commutative op] [Std.Associative op] (b : α) (g : Fin 4 → α) :
    (Finset.univ : Finset (Fin 4)).fold op b g = op (g 0) (op (g 1) (op (g 2) (op (g 3) b))) := by
  simp [Fin.univ_succ, Finset.fold_cons, Finset.fold_map]

/-! ## The arrays: `n` rows of 6 boxes of 4 numbers -/

section Arrays
variable {n : ℕ} (P T : (⟨3, ![n, 6, 4]⟩ : Shape).Idx → EReal)

/-- The ratio of box `l` of row `r`. -/
def iouAt (r : Fin n) (l : Fin 6) : EReal :=
  iouBox (P (ix3 r l 0)) (P (ix3 r l 1)) (P (ix3 r l 2)) (P (ix3 r l 3))
    (T (ix3 r l 0)) (T (ix3 r l 1)) (T (ix3 r l 2)) (T (ix3 r l 3))

/-- The weight (0 or 1) of box `l` of row `r`. -/
def weightAt (r : Fin n) (l : Fin 6) : EReal :=
  weightBox (T (ix3 r l 0)) (T (ix3 r l 1)) (T (ix3 r l 2)) (T (ix3 r l 3))

/-- The counted ratio of box `l` of row `r`. -/
def termAt (r : Fin n) (l : Fin 6) : EReal := iouAt P T r l * weightAt T r l

end Arrays

/-- The mean from the two totals: total / max(count, 1) when the count is positive, else 0. -/
def meanOf (tot cnt : EReal) : EReal :=
  Scalar.select (Ideal.cmp .ogt cnt zeroF) (Ideal.div tot (max cnt oneF)) zeroF

/-- THE RESULT: the one entry of the [1, 1] output, from the two [1000000, 6, 4] arguments. -/
def meanIou (P T : (⟨3, ![1000000, 6, 4]⟩ : Shape).Idx → EReal) : (⟨2, ![1, 1]⟩ : Shape).Idx → EReal :=
  fun _ => meanOf (zeroF + ∑ r : Fin 1000000, ∑ l : Fin 6, termAt P T r l)
    (zeroF + ∑ r : Fin 1000000, ∑ l : Fin 6, weightAt T r l)

end Cert.BoxSpec

end
-- ==== Proof.KernelPieces.lean ====
/-
  What one grid point leaves in the kernel's two running totals and, at the last point, in its output.

  The kernel walks the 1000 row blocks in order and keeps two [1, 1] accumulators between grid points: the running sum of
  the counted ratios and the running count of the counted boxes. At the first point both are set to 0 before anything is
  added; at every point the block's sum of counted ratios is added to the first and the block's count to the second
  (`sumStep`, `cntStep`: what the accumulator held, plus this block's share); at the last point the mean
  is formed from the two freshly updated accumulators and stored to the output.

  Each lemma below reads back what a case of the body wrote to one buffer — a single store covering the whole [1, 1]
  buffer, whose loads read whole buffers — as that pure function of the two input blocks and of what the accumulators held.
-/
import proofs.«158714_j88493506166986_2_alg».proof.Proof.Gen.KernelIdeal.Frame
import Idealize.ShloMosaic.Lib.Pipeline.Value
import Idealize.ShloMosaic.Lib.Tactic

noncomputable section

open Idealize.ShloMosaic Idealize.ShloMosaic.TcCoe Idealize.ShloMosaic.Tactic Idealize.SL.Sem
open Idealize.ShloMosaic.Pipeline (Dat)

namespace Cert.KernelIdeal.Pieces

open Cert.KernelIdeal Cert.KernelIdeal.Gen

variable {F : FTy → Type} [FloatOps F]

theorem hz : (![0, 0] : Fin 2 → Nat) = fun _ => 0 := funext fun a => by fin_cases a <;> rfl

/-- The block's ratios: for a block of predicted boxes `x0` and of truth boxes `x1`, the [1000, 6] array of
    intersection-over-union values (the edges of both boxes, their overlap, the two areas, the quotient). -/
def ratioV (x0 x1 : Vec F S1000x6x4 .f32) : FVec F S1000x6 .f32 :=
  k0_pay14 x1 (k0_pay7 x0) (k0_pay8 x0) (k0_pay9 x0) (k0_pay10 x0) (k0_pay11 x1) (k0_pay12 x1) (k0_pay13 x1)
    (Scalar.ofBits .f32 0x3F000000#32)

/-- The block's sentinel bits: for each truth box, whether the least of its four "equals −1" indicators is positive. -/
def sentV (x1 : Vec F S1000x6x4 .f32) : IVec S1000x6 1 := k0_pay15 x1

/-- The all-ones bit array the sentinel bits are negated against. -/
abbrev onesI : IVec S1000x6 1 := constantI S1000x6 1 1#1

/-- One step of the running sum: what it held plus the block's sum of counted ratios. -/
def sumStep (x0 x1 : Vec F S1000x6x4 .f32) (acc : Vec F S1x1 .f32) : Vec F S1x1 .f32 :=
  k0_pay2 (ratioV x0 x1) (sentV x1) onesI acc

/-- One step of the running count: what it held plus the block's number of counted boxes. -/
def cntStep (x1 : Vec F S1000x6x4 .f32) (acc : Vec F S1x1 .f32) : Vec F S1x1 .f32 :=
  k0_pay3 (sentV (F := F) x1) onesI acc

theorem hz3 : (![0, 0, 0] : Fin 3 → Nat) = fun _ => 0 := funext fun a => by fin_cases a <;> rfl

/-! ## A middle point (neither first nor last): both accumulators step -/

theorem sB0 (c : Dev nD) (i : grid0.Coords) (a1 : Memref sig .tc .vmem S1000x6x4 .f32) (h1 : a1.IsWhole)
    (a2 : Memref sig .tc .vmem S1000x6x4 .f32) (h2 : a2.IsWhole) (a3 : Memref sig .tc .vmem S1x1 .f32) (h3 : a3.IsWhole)
    (a4 : Memref sig .tc .vmem S1x1 .f32) (h4 : a4.IsWhole) (a5 : Memref sig .tc .vmem S1x1 .f32) (h5 : a5.IsWhole)
    (hc0 : ¬cond0_0 i) (hc1 : ¬cond0_1 i) (x0 x1 : Vec F S1000x6x4 .f32) (xs0 xs1 : Vec F S1x1 .f32) :
    sout0_B_0 c i a1 h1 a2 h2 a3 h3 a4 h4 a5 h5 hc0 hc1 x0 x1 xs0 xs1 = sumStep x0 x1 xs0 := by
  unfold sout0_B_0
  rw [View.read_writes_eq_canon _ _ _ (scover0_B_0 c i a1 h1 a2 h2 a3 h3 a4 h4 a5 h5 hc0 hc1 x0 x1 xs0 xs1)]
  unfold kernelRun0_B
  dsimp only
  sl_unfold_words
  rw [View.canon_unit_zero hz]
  simp only [View.readAt_eq_ld, h1.read_unread, h2.read_unread, h4.read_unread, h5.read_unread,
    View.ld_unit_zero (S := S1000x6x4) hz3, View.ld_unit_zero (S := S1x1) hz]
  rfl

theorem sB1 (c : Dev nD) (i : grid0.Coords) (a1 : Memref sig .tc .vmem S1000x6x4 .f32) (h1 : a1.IsWhole)
    (a2 : Memref sig .tc .vmem S1000x6x4 .f32) (h2 : a2.IsWhole) (a3 : Memref sig .tc .vmem S1x1 .f32) (h3 : a3.IsWhole)
    (a4 : Memref sig .tc .vmem S1x1 .f32) (h4 : a4.IsWhole) (a5 : Memref sig .tc .vmem S1x1 .f32) (h5 : a5.IsWhole)
    (hc0 : ¬cond0_0 i) (hc1 : ¬cond0_1 i) (x0 x1 : Vec F S1000x6x4 .f32) (xs0 xs1 : Vec F S1x1 .f32) :
    sout0_B_1 c i a1 h1 a2 h2 a3 h3 a4 h4 a5 h5 hc0 hc1 x0 x1 xs0 xs1 = cntStep x1 xs1 := by
  unfold sout0_B_1
  rw [View.read_writes_eq_canon _ _ _ (scover0_B_1 c i a1 h1 a2 h2 a3 h3 a4 h4 a5 h5 hc0 hc1 x0 x1 xs0 xs1)]
  unfold kernelRun0_B
  dsimp only
  sl_unfold_words
  rw [View.canon_unit_zero hz]
  simp only [View.readAt_eq_ld, h1.read_unread, h2.read_unread, h4.read_unread, h5.read_unread,
    View.ld_unit_zero (S := S1000x6x4) hz3, View.ld_unit_zero (S := S1x1) hz]
  rfl

/-! ## The last point: both accumulators step, then the mean is stored -/

theorem sC0 (c : Dev nD) (i : grid0.Coords) (a1 : Memref sig .tc .vmem S1000x6x4 .f32) (h1 : a1.IsWhole)
    (a2 : Memref sig .tc .vmem S1000x6x4 .f32) (h2 : a2.IsWhole) (a3 : Memref sig .tc .vmem S1x1 .f32) (h3 : a3.IsWhole)
    (a4 : Memref sig .tc .vmem S1x1 .f32) (h4 : a4.IsWhole) (a5 : Memref sig .tc .vmem S1x1 .f32) (h5 : a5.IsWhole)
    (hc0 : ¬cond0_0 i) (hc1 : cond0_1 i) (x0 x1 : Vec F S1000x6x4 .f32) (xs0 xs1 : Vec F S1x1 .f32) :
    sout0_C_0 c i a1 h1 a2 h2 a3 h3 a4 h4 a5 h5 hc0 hc1 x0 x1 xs0 xs1 = sumStep x0 x1 xs0 := by
  unfold sout0_C_0
  rw [View.read_writes_eq_canon _ _ _ (scover0_C_0 c i a1 h1 a2 h2 a3 h3 a4 h4 a5 h5 hc0 hc1 x0 x1 xs0 xs1)]
  unfold kernelRun0_C
  dsimp only
  sl_unfold_words
  rw [View.canon_unit_zero hz]
  simp only [View.readAt_eq_ld, h1.read_unread, h2.read_unread, h4.read_unread, h5.read_unread,
    View.ld_unit_zero (S := S1000x6x4) hz3, View.ld_unit_zero (S := S1x1) hz]
  rfl

theorem sC1 (c : Dev nD) (i : grid0.Coords) (a1 : Memref sig .tc .vmem S1000x6x4 .f32) (h1 : a1.IsWhole)
    (a2 : Memref sig .tc .vmem S1000x6x4 .f32) (h2 : a2.IsWhole) (a3 : Memref sig .tc .vmem S1x1 .f32) (h3 : a3.IsWhole)
    (a4 : Memref sig .tc .vmem S1x1 .f32) (h4 : a4.IsWhole) (a5 : Memref sig .tc .vmem S1x1 .f32) (h5 : a5.IsWhole)
    (hc0 : ¬cond0_0 i) (hc1 : cond0_1 i) (x0 x1 : Vec F S1000x6x4 .f32) (xs0 xs1 : Vec F S1x1 .f32) :
    sout0_C_1 c i a1 h1 a2 h2 a3 h3 a4 h4 a5 h5 hc0 hc1 x0 x1 xs0 xs1 = cntStep x1 xs1 := by
  unfold sout0_C_1
  rw [View.read_writes_eq_canon _ _ _ (scover0_C_1 c i a1 h1 a2 h2 a3 h3 a4 h4 a5 h5 hc0 hc1 x0 x1 xs0 xs1)]
  unfold kernelRun0_C
  dsimp only
  sl_unfold_words
  rw [View.canon_unit_zero hz]
  simp only [View.readAt_eq_ld, h1.read_unread, h2.read_unread, h4.read_unread, h5.read_unread,
    View.ld_unit_zero (S := S1000x6x4) hz3, View.ld_unit_zero (S := S1x1) hz]
  rfl

theorem oC2 (c : Dev nD) (i : grid0.Coords) (a1 : Memref sig .tc .vmem S1000x6x4 .f32) (h1 : a1.IsWhole)
    (a2 : Memref sig .tc .vmem S1000x6x4 .f32) (h2 : a2.IsWhole) (a3 : Memref sig .tc .vmem S1x1 .f32) (h3 : a3.IsWhole)
    (a4 : Memref sig .tc .vmem S1x1 .f32) (h4 : a4.IsWhole) (a5 : Memref sig .tc .vmem S1x1 .f32) (h5 : a5.IsWhole)
    (hc0 : ¬cond0_0 i) (hc1 : cond0_1 i) (x0 x1 : Vec F S1000x6x4 .f32) (xs0 xs1 : Vec F S1x1 .f32) :
    out0_C_2 c i a1 h1 a2 h2 a3 h3 a4 h4 a5 h5 hc0 hc1 x0 x1 xs0 xs1 = k0_pay4 (sumStep x0 x1 xs0) (cntStep x1 xs1) := by
  unfold out0_C_2
  rw [View.read_writes_eq_canon _ _ _ (cover0_C_2 c i a1 h1 a2 h2 a3 h3 a4 h4 a5 h5 hc0 hc1 x0 x1 xs0 xs1)]
  unfold kernelRun0_C
  dsimp only
  sl_unfold_words
  rw [View.canon_unit_zero hz, View.readCov_unit_zero (S := S1x1) _ hz, View.readCov_unit_zero (S := S1x1) _ hz]
  simp only [View.readAt_eq_ld, h1.read_unread, h2.read_unread, h4.read_unread, h5.read_unread,
    View.ld_unit_zero (S := S1000x6x4) hz3, View.ld_unit_zero (S := S1x1) hz]
  rfl

/-! ## The first point: both accumulators are zeroed, then step -/

theorem sA0 (c : Dev nD) (i : grid0.Coords) (a1 : Memref sig .tc .vmem S1000x6x4 .f32) (h1 : a1.IsWhole)
    (a2 : Memref sig .tc .vmem S1000x6x4 .f32) (h2 : a2.IsWhole) (a3 : Memref sig .tc .vmem S1x1 .f32) (h3 : a3.IsWhole)
    (a4 : Memref sig .tc .vmem S1x1 .f32) (h4 : a4.IsWhole) (a5 : Memref sig .tc .vmem S1x1 .f32) (h5 : a5.IsWhole)
    (hc0 : cond0_0 i) (hc1 : ¬cond0_1 i) (x0 x1 : Vec F S1000x6x4 .f32) :
    sout0_A_0 c i a1 h1 a2 h2 a3 h3 a4 h4 a5 h5 hc0 hc1 x0 x1 = sumStep x0 x1 (k0_pay5 (F := F)) := by
  unfold sout0_A_0
  rw [View.read_writes_eq_canon _ _ _ (scover0_A_0 c i a1 h1 a2 h2 a3 h3 a4 h4 a5 h5 hc0 hc1 x0 x1)]
  unfold kernelRun0_A
  dsimp only
  sl_unfold_words
  rw [View.canon_cons_unit_zero (S := S1x1) hz, View.readCov_unit_zero (S := S1x1) _ hz]
  simp only [View.readAt_eq_ld, h1.read_unread, h2.read_unread, h4.read_unread, h5.read_unread,
    View.ld_unit_zero (S := S1000x6x4) hz3, View.ld_unit_zero (S := S1x1) hz]
  rfl

theorem sA1 (c : Dev nD) (i : grid0.Coords) (a1 : Memref sig .tc .vmem S1000x6x4 .f32) (h1 : a1.IsWhole)
    (a2 : Memref sig .tc .vmem S1000x6x4 .f32) (h2 : a2.IsWhole) (a3 : Memref sig .tc .vmem S1x1 .f32) (h3 : a3.IsWhole)
    (a4 : Memref sig .tc .vmem S1x1 .f32) (h4 : a4.IsWhole) (a5 : Memref sig .tc .vmem S1x1 .f32) (h5 : a5.IsWhole)
    (hc0 : cond0_0 i) (hc1 : ¬cond0_1 i) (x0 x1 : Vec F S1000x6x4 .f32) :
    sout0_A_1 c i a1 h1 a2 h2 a3 h3 a4 h4 a5 h5 hc0 hc1 x0 x1 = cntStep x1 (k0_pay6 (F := F)) := by
  unfold sout0_A_1
  rw [View.read_writes_eq_canon _ _ _ (scover0_A_1 c i a1 h1 a2 h2 a3 h3 a4 h4 a5 h5 hc0 hc1 x0 x1)]
  unfold kernelRun0_A
  dsimp only
  sl_unfold_words
  rw [View.canon_cons_unit_zero (S := S1x1) hz, View.readCov_unit_zero (S := S1x1) _ hz]
  simp only [View.readAt_eq_ld, h1.read_unread, h2.read_unread, h4.read_unread, h5.read_unread,
    View.ld_unit_zero (S := S1000x6x4) hz3, View.ld_unit_zero (S := S1x1) hz]
  rfl

end Cert.KernelIdeal.Pieces

end
-- ==== Proof.BoxLayout.lean ====
/-
  Reading the boxes out of an [n, 6, 4] array: entry `k` of every box as an [n, 6] array, and the two ways the programs
  decide "all four numbers of a box satisfy a test" — a minimum over the last axis (of numbers) and a conjunction over the
  last axis (of bits) — each read at a box `(r, l)` as the four-fold operation over the box's entries. The extent `n` is
  free: the kernel reads blocks of 1000 rows, the reference the whole array of 1000000.
-/
import proofs.«158714_j88493506166986_2_alg».proof.Proof.BoxSpec
import Idealize.ShloMosaic.PureOps.Ideal.Laws
import Idealize.ShloMosaic.PureOps.Reduce
import Idealize.ShloMosaic.Lib.ValueIdx
import Idealize.ShloMosaic.Lib.Pipeline.Value

noncomputable section

open Idealize.ShloMosaic Idealize.ShloMosaic.ValueIdx

namespace Cert.BoxSpec

/-- Entry `k` of every box, as an [n, 6] array: the slice [0:n, 0:6, k:k+1] with its unit axis dropped reads, at
    `(r, l)`, the array at `(r, l, k)`. -/
theorem col_apply {α : Type} {n : ℕ} (v : (⟨3, ![n, 6, 4]⟩ : Shape).Idx → α) (k : Fin 4) (off : Fin 3 → ℕ)
    (hoff : off = ![0, 0, k.val]) (h : (⟨3, ![n, 6, 4]⟩ : Shape).Slices off ⟨3, ![n, 6, 1]⟩)
    (h' : (⟨3, ![n, 6, 1]⟩ : Shape).ShapeCasts ⟨2, ![n, 6]⟩) (r : Fin n) (l : Fin 6) :
    shapeCast ⟨2, ![n, 6]⟩ (extractStridedSlice ⟨3, ![n, 6, 1]⟩ off v h) h' (ix2 r l) = v (ix3 r l k) := by
  subst hoff
  refine (shapeCast_apply _ h' (ix2 r l) (ix3 r l (0 : Fin 1)) ?_).trans ?_
  · rw [Shape.rowMajor_val_three, Shape.rowMajor_val_two]
    show (r.val * 6 + l.val) * 1 + 0 = r.val * 6 + l.val
    omega
  · exact extractStridedSlice_apply _ v h _ _ (fun a => by
      match a with
      | ⟨0, _⟩ => show r.val = 0 + r.val; omega
      | ⟨1, _⟩ => show l.val = 0 + l.val; omega
      | ⟨2, _⟩ => show k.val = k.val + 0; rfl)

/-- The index a reduction along the last axis of [n, 6, 4] inserts over `(r, l)` at coordinate `k` is `(r, l, k)`. -/
theorem lift_last {n : ℕ} (h : Shape.Reduces ⟨3, ![n, 6, 4]⟩ [2] ⟨2, ![n, 6]⟩) (r : Fin n) (l : Fin 6) (k : Fin 4) :
    h.lift (ix2 r l) k = ix3 r l k :=
  funext fun d => Fin.ext (by match d with | ⟨0, _⟩ => rfl | ⟨1, _⟩ => rfl | ⟨2, _⟩ => rfl)

/-- On the extended reals the minimum along the last axis of [n, 6, 4], at `(r, l)`, is the least of the box's four
    numbers and the accumulator's value. -/
theorem minLast_apply {n : ℕ} (v : FVec Ideal ⟨3, ![n, 6, 4]⟩ .f32) (acc : BitVec 32)
    (h : Shape.Reduces ⟨3, ![n, 6, 4]⟩ [2] ⟨2, ![n, 6]⟩) (hφ : FKind.Formats .f32)
    (hacc : acc = FKind.minimumf.neutral .f32 hφ) (r : Fin n) (l : Fin 6) :
    multiReduction .minimumf [2] ⟨2, ![n, 6]⟩ v acc h hφ hacc (ix2 r l)
      = min (v (ix3 r l 0)) (min (v (ix3 r l 1)) (min (v (ix3 r l 2)) (min (v (ix3 r l 3)) (Ideal.ofBits .f32 acc)))) := by
  rw [multiReduction_minimumf_eq_fold, h.fold_filter_drop_single]
  refine (fold_four (FloatOps.minimumf (F := Ideal) (φ := .f32)) (Ideal.ofBits .f32 acc) (v ∘ h.lift (ix2 r l))).trans ?_
  simp only [Function.comp, lift_last]
  rfl

/-- The host's reduction by `and` along the last axis of an [n, 6, 4] array of bits, at `(r, l)`, is the conjunction of
    the box's four bits and the initial value. -/
theorem andLast_apply {n : ℕ} {u : Shape} (v : (⟨3, ![n, 6, 4]⟩ : Shape).Idx → BitVec 1) (init : u.Idx → BitVec 1)
    (h' : Shape.ReducesTo ⟨3, ![n, 6, 4]⟩ [2] ⟨2, ![n, 6]⟩) (h : Shape.Reduces ⟨3, ![n, 6, 4]⟩ [2] ⟨2, ![n, 6]⟩)
    (hu : 0 < u.numel) (r : Fin n) (l : Fin 6) :
    Host.reduce IntOp.andi v init h' hu (ix2 r l)
      = IntOp.andi (v (ix3 r l 0)) (IntOp.andi (v (ix3 r l 1)) (IntOp.andi (v (ix3 r l 2))
          (IntOp.andi (v (ix3 r l 3)) (init (Shape.Idx.first hu))))) := by
  rw [Host.reduce_eq_fold_single IntOp.andi v init h' h hu]
  refine (fold_four (IntOp.andi (w := 1)) (init (Shape.Idx.first hu)) (v ∘ h.lift (ix2 r l))).trans ?_
  simp only [Function.comp, lift_last]

end Cert.BoxSpec

end
-- ==== Proof.LibKeepdims.lean ====
/-
  A row-wise reduction kept as a column (`keepdims=True`) and spread back over the row, read at an index.

  A matrix `v : [a, b]` reduced along its rows gives a vector `[a]`; the vector is re-laid as a column `[a, 1]` and
  the column is broadcast to `[a, b]`. At `(r, c)` the result is the reduction of row `r`, whatever `c`. This file has
  the two layout steps (`[a] → [a, 1]`, `[a, 1] → [a, b]`) at any element type, and, on the extended reals, the two
  reductions a softmax uses read at a row: the maximum as a fold of `max` over the row's entries and the sum as a `∑`.
-/
import Idealize.ShloMosaic.PureOps.Ideal.Laws
import Idealize.ShloMosaic.Lib.Pipeline.Value
import Idealize.ShloMosaic.Lib.ValueIdx

namespace Cert.Keepdims

open Idealize.ShloMosaic Idealize.ShloMosaic.ValueIdx

section Layout
variable {α : Type}

/-- A vector `[a]` cast to a column `[a, 1]` reads, at `(i, u)`, the vector at `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast to `[a, b]` reads, at `(p, c)`, the column's entry of row `p`. -/
theorem broadcastTo_a1_ab_apply {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- The two steps together: a vector kept as a column and spread over the rows reads, at `(p, c)`, the vector at `p`. -/
theorem spread_apply {a b : ℕ} (x : (⟨1, ![a]⟩ : Shape).Idx → α) (hc : (⟨1, ![a]⟩ : Shape).ShapeCasts ⟨2, ![a, 1]⟩)
    (hb : (⟨2, ![a, 1]⟩ : Shape).Broadcasts ⟨2, ![a, b]⟩) (p : Fin a) (c : Fin b) :
    broadcastTo ⟨2, ![a, b]⟩ (shapeCast ⟨2, ![a, 1]⟩ x hc) hb (ix2 p c) = x (ix1 p) :=
  (broadcastTo_a1_ab_apply _ hb p c).trans (shapeCast_a_a1_apply x hc p 0)

end Layout

section Reductions
variable {φ : FTy}

/-- Row `r` of a matrix reached through the index a reduction along the rows inserts. -/
theorem lift_row {a b : ℕ} (h : Shape.Reduces ⟨2, ![a, b]⟩ [1] ⟨1, ![a]⟩) (r : Fin a) (s : Fin b) :
    h.lift (ix1 r) s = ix2 r s :=
  funext fun d => Fin.ext (by match d with | ⟨0, _⟩ => rfl | ⟨1, _⟩ => rfl)

/-- On the extended reals the maximum along the rows, at row `r`, is the fold of `max`, from the accumulator's value,
    over that row's entries. -/
theorem rowMax_apply {a b : ℕ} (v : FVec Ideal ⟨2, ![a, b]⟩ φ) (acc : BitVec φ.bits)
    (h : Shape.Reduces ⟨2, ![a, b]⟩ [1] ⟨1, ![a]⟩) (hφ : FKind.Formats φ) (hacc : acc = FKind.maximumf.neutral φ hφ) (r : Fin a) :
    multiReduction .maximumf [1] ⟨1, ![a]⟩ v acc h hφ hacc (ix1 r)
      = (Finset.univ : Finset (Fin b)).fold max (FloatOps.ofBits (F := Ideal) φ acc) (fun s => v (ix2 r s)) :=
  (Ideal.multiReduction_maximumf_single v acc h hφ hacc (ix1 r)).trans
    (congrArg (fun f => (Finset.univ : Finset (Fin b)).fold max (FloatOps.ofBits (F := Ideal) φ acc) f)
      (funext fun s => congrArg v (lift_row h r s)))

/-- On the extended reals the sum along the rows, at row `r`, is the sum of that row's entries. -/
theorem rowSum_apply {a b : ℕ} (v : FVec Ideal ⟨2, ![a, b]⟩ φ) (acc : BitVec φ.bits)
    (h : Shape.Reduces ⟨2, ![a, b]⟩ [1] ⟨1, ![a]⟩) (hφ : FKind.Formats φ) (hacc : acc = FKind.add.neutral φ hφ) (r : Fin a) :
    multiReduction .add [1] ⟨1, ![a]⟩ v acc h hφ hacc (ix1 r) = ∑ s : Fin b, v (ix2 r s) :=
  (Ideal.multiReduction_add_single v acc h hφ hacc (ix1 r)).trans
    (Finset.sum_congr rfl fun s _ => congrArg v (lift_row h r s))

end Reductions

end Cert.Keepdims
-- ==== Proof.LibSums.lean ====
/-
  Sums over the index set of a small array, written as iterated sums over the coordinates, and three reductions read
  at an index on the extended reals.

  * An index of a rank-1, rank-3 or rank-4 array is the tuple of its coordinates, so a sum over all indices is the
    iterated sum over the coordinate ranges (`sum_idx1`, `sum_idx3`, `sum_idx4`).
  * A host sum that removes the two adjacent axes 1 and 2 of a rank-6 array `[a, n, m, b, c, d]` is, at `(p, q, r, s)`,
    the initial value plus the double sum over the two removed coordinates (`hostSum_axes12_apply`).
  * A vector sum along the leading axis of a rank-3 array `[n, a, b]` is, at `(i, j)`, the sum over the leading
    coordinate (`leadSum3_apply`); along the leading axis of a column `[a, 1]` it is the sum of the column
    (`colSum_apply`).
  * A one-element vector `[1]` viewed as `[1, 1]`, and `[1, 1]` viewed as `[1, 1, 1]`, keep their one entry
    (`shapeCast_1_11_apply`, `shapeCast_11_111_apply`).
  * Unit axes dropped from a block: `[1, n, 1, a, b]` viewed as `[n, a, b]` and `[1, 1, a, b]` viewed as `[a, b]`, read at
    an index (`shapeCast_1n1ab_nab_apply`, `shapeCast_11ab_ab_apply`).
  * One matrix repeated along a new leading axis, `[1, a, b] → [n, a, b]` (`broadcastTo_1ab_nab_apply`), and the chain that
    takes member `k` of a stack `[n, a, b]`, drops and restores its unit axis and repeats it `n` times: at `(m, i, j)` it
    reads the stack at `(k, i, j)` (`memberSpread_apply`).
-/
import Idealize.ShloMosaic.PureOps.Ideal.Laws
import Idealize.ShloMosaic.Lib.Pipeline.Value
import Idealize.ShloMosaic.Lib.ValueIdx
import Idealize.ShloMosaic.Lib.ValueLayout

noncomputable section

open scoped BigOperators

namespace Cert.Sums

open Idealize.ShloMosaic Idealize.ShloMosaic.ValueIdx

section IndexSums
variable {M : Type*} [AddCommMonoid M]

/-- A sum over the indices of a vector is the sum over its one coordinate. -/
theorem sum_idx1 {n : ℕ} (f : (⟨1, ![n]⟩ : Shape).Idx → M) : ∑ i, f i = ∑ a : Fin n, f (ix1 a) := by
  let e : (⟨1, ![n]⟩ : Shape).Idx ≃ Fin n :=
    { toFun := fun i => i 0, invFun := fun a => ix1 a, left_inv := fun i => (eq_ix1 i).symm, right_inv := fun _ => rfl }
  rw [← Equiv.sum_comp e.symm f]
  rfl

/-- A sum over the indices of a rank-3 array is the triple sum over its coordinates. -/
theorem sum_idx3 {n0 n1 n2 : ℕ} (f : (⟨3, ![n0, n1, n2]⟩ : Shape).Idx → M) :
    ∑ i, f i = ∑ a : Fin n0, ∑ b : Fin n1, ∑ c : Fin n2, f (ix3 a b c) := by
  let e : (⟨3, ![n0, n1, n2]⟩ : Shape).Idx ≃ Fin n0 × Fin n1 × Fin n2 :=
    { toFun := fun i => (i 0, i 1, i 2), invFun := fun p => ix3 p.1 p.2.1 p.2.2,
      left_inv := fun i => (eq_ix3 i).symm, right_inv := fun _ => rfl }
  rw [← Equiv.sum_comp e.symm f, Fintype.sum_prod_type]
  refine Finset.sum_congr rfl fun a _ => ?_
  rw [Fintype.sum_prod_type]
  rfl

/-- A sum over the indices of a rank-4 array is the fourfold sum over its coordinates. -/
theorem sum_idx4 {n0 n1 n2 n3 : ℕ} (f : (⟨4, ![n0, n1, n2, n3]⟩ : Shape).Idx → M) :
    ∑ i, f i = ∑ a : Fin n0, ∑ b : Fin n1, ∑ c : Fin n2, ∑ d : Fin n3, f (ix4 a b c d) := by
  let e : (⟨4, ![n0, n1, n2, n3]⟩ : Shape).Idx ≃ Fin n0 × Fin n1 × Fin n2 × Fin n3 :=
    { toFun := fun i => (i 0, i 1, i 2, i 3), invFun := fun p => ix4 p.1 p.2.1 p.2.2.1 p.2.2.2,
      left_inv := fun i => (eq_ix4 i).symm, right_inv := fun _ => rfl }
  rw [← Equiv.sum_comp e.symm f, Fintype.sum_prod_type]
  refine Finset.sum_congr rfl fun a _ => ?_
  rw [Fintype.sum_prod_type]
  refine Finset.sum_congr rfl fun b _ => ?_
  rw [Fintype.sum_prod_type]
  rfl

end IndexSums

/-- On the extended reals a host sum over axes 1 and 2 of `[a, n, m, b, c, d]` is, at `(p, q, r, s)`, the initial value
    plus the sum over both removed coordinates of the entry at `(p, i, j, q, r, s)`. -/
theorem hostSum_axes12_apply {a n m b c d : ℕ}
    (h' : (⟨6, ![a, n, m, b, c, d]⟩ : Shape).ReducesTo [1, 2] ⟨4, ![a, b, c, d]⟩)
    (x : (⟨6, ![a, n, m, b, c, d]⟩ : Shape).Idx → EReal) (init : EReal) (p : Fin a) (q : Fin b) (r : Fin c) (s : Fin d) :
    Ideal.hostReduceAdd h' x init (ix4 p q r s) = init + ∑ i : Fin n, ∑ j : Fin m, x (ix6 p i j q r s) := by
  unfold Ideal.hostReduceAdd
  refine congrArg (init + ·) ?_
  rw [← Fintype.sum_prod_type' (fun (i : Fin n) (j : Fin m) => x (ix6 p i j q r s))]
  refine Finset.sum_nbij' (fun i => (i 1, i 2)) (fun k => ix6 p k.1 k.2 q r s) ?_ ?_ ?_ ?_ ?_
  · intro i _; exact Finset.mem_univ _
  · intro k _
    refine Finset.mem_filter.2 ⟨Finset.mem_univ _, funext fun e => Fin.ext ?_⟩
    match e with | ⟨0, _⟩ => rfl | ⟨1, _⟩ => rfl | ⟨2, _⟩ => rfl | ⟨3, _⟩ => rfl
  · intro i hi
    have hj := (Finset.mem_filter.1 hi).2
    have e0 : (i 0).val = p.val := congrArg (fun v : (⟨4, ![a, b, c, d]⟩ : Shape).Idx => (v 0).val) hj
    have e1 : (i 3).val = q.val := congrArg (fun v : (⟨4, ![a, b, c, d]⟩ : Shape).Idx => (v 1).val) hj
    have e2 : (i 4).val = r.val := congrArg (fun v : (⟨4, ![a, b, c, d]⟩ : Shape).Idx => (v 2).val) hj
    have e3 : (i 5).val = s.val := congrArg (fun v : (⟨4, ![a, b, c, d]⟩ : Shape).Idx => (v 3).val) hj
    funext e
    apply Fin.ext
    match e with
    | ⟨0, _⟩ => exact e0.symm
    | ⟨1, _⟩ => rfl
    | ⟨2, _⟩ => rfl
    | ⟨3, _⟩ => exact e1.symm
    | ⟨4, _⟩ => exact e2.symm
    | ⟨5, _⟩ => exact e3.symm
  · intro k _; rfl
  · intro i hi
    have hj := (Finset.mem_filter.1 hi).2
    have e0 : (i 0).val = p.val := congrArg (fun v : (⟨4, ![a, b, c, d]⟩ : Shape).Idx => (v 0).val) hj
    have e1 : (i 3).val = q.val := congrArg (fun v : (⟨4, ![a, b, c, d]⟩ : Shape).Idx => (v 1).val) hj
    have e2 : (i 4).val = r.val := congrArg (fun v : (⟨4, ![a, b, c, d]⟩ : Shape).Idx => (v 2).val) hj
    have e3 : (i 5).val = s.val := congrArg (fun v : (⟨4, ![a, b, c, d]⟩ : Shape).Idx => (v 3).val) hj
    refine congrArg x (funext fun e => Fin.ext ?_)
    match e with
    | ⟨0, _⟩ => exact e0
    | ⟨1, _⟩ => rfl
    | ⟨2, _⟩ => rfl
    | ⟨3, _⟩ => exact e1
    | ⟨4, _⟩ => exact e2
    | ⟨5, _⟩ => exact e3

section VectorSums
variable {φ : FTy}

/-- The index a sum along the leading axis of `[n, a, b]` inserts over `(i, j)` at coordinate `k` is `(k, i, j)`. -/
theorem lift_lead3 {n a b : ℕ} (h : Shape.Reduces ⟨3, ![n, a, b]⟩ [0] ⟨2, ![a, b]⟩) (i : Fin a) (j : Fin b) (k : Fin n) :
    h.lift (ix2 i j) k = ix3 k i j :=
  funext fun d => Fin.ext (by match d with | ⟨0, _⟩ => rfl | ⟨1, _⟩ => rfl | ⟨2, _⟩ => rfl)

/-- On the extended reals a vector sum along the leading axis of `[n, a, b]`, at `(i, j)`, is the sum over the leading
    coordinate. -/
theorem leadSum3_apply {n a b : ℕ} (v : FVec Ideal ⟨3, ![n, a, b]⟩ φ) (acc : BitVec φ.bits)
    (h : Shape.Reduces ⟨3, ![n, a, b]⟩ [0] ⟨2, ![a, b]⟩) (hφ : FKind.Formats φ) (hacc : acc = FKind.add.neutral φ hφ)
    (i : Fin a) (j : Fin b) :
    multiReduction .add [0] ⟨2, ![a, b]⟩ v acc h hφ hacc (ix2 i j) = ∑ k : Fin n, v (ix3 k i j) :=
  (Ideal.multiReduction_add_single v acc h hφ hacc (ix2 i j)).trans
    (Finset.sum_congr rfl fun k _ => congrArg v (lift_lead3 h i j k))

/-- The index a sum along the leading axis of a column `[a, 1]` inserts over its one result index is `(k, 0)`. -/
theorem lift_col {a : ℕ} (h : Shape.Reduces ⟨2, ![a, 1]⟩ [0] ⟨1, ![1]⟩) (u : Fin 1) (k : Fin a) :
    h.lift (ix1 u) k = ix2 k u :=
  funext fun d => Fin.ext (by match d with | ⟨0, _⟩ => rfl | ⟨1, _⟩ => rfl)

/-- On the extended reals a vector sum along the leading axis of a column `[a, 1]` is the sum of the column. -/
theorem colSum_apply {a : ℕ} (v : FVec Ideal ⟨2, ![a, 1]⟩ φ) (acc : BitVec φ.bits)
    (h : Shape.Reduces ⟨2, ![a, 1]⟩ [0] ⟨1, ![1]⟩) (hφ : FKind.Formats φ) (hacc : acc = FKind.add.neutral φ hφ) (u : Fin 1) :
    multiReduction .add [0] ⟨1, ![1]⟩ v acc h hφ hacc (ix1 u) = ∑ k : Fin a, v (ix2 k u) :=
  (Ideal.multiReduction_add_single v acc h hφ hacc (ix1 u)).trans
    (Finset.sum_congr rfl fun k _ => congrArg v (lift_col h u k))

end VectorSums

section Layout
variable {α : Type}

/-- A one-element vector `[1]` viewed as `[1, 1]` keeps its entry. -/
theorem shapeCast_1_11_apply (x : (⟨1, ![1]⟩ : Shape).Idx → α) (h : (⟨1, ![1]⟩ : Shape).ShapeCasts ⟨2, ![1, 1]⟩)
    (u v : Fin 1) : shapeCast ⟨2, ![1, 1]⟩ x h (ix2 u v) = x (ix1 (0 : Fin 1)) :=
  shapeCast_apply x h _ _ (by
    have hu : u.val = 0 := by omega
    have hv : v.val = 0 := by omega
    rw [Shape.rowMajor_val_two, Shape.rowMajor_val_one]
    show 0 = u.val * 1 + v.val
    rw [hu, hv])

/-- A `[1, 1]` array viewed as `[1, 1, 1]` keeps its entry. -/
theorem shapeCast_11_111_apply (x : (⟨2, ![1, 1]⟩ : Shape).Idx → α) (h : (⟨2, ![1, 1]⟩ : Shape).ShapeCasts ⟨3, ![1, 1, 1]⟩)
    (u v w : Fin 1) : shapeCast ⟨3, ![1, 1, 1]⟩ x h (ix3 u v w) = x (ix2 (0 : Fin 1) (0 : Fin 1)) :=
  shapeCast_apply x h _ _ (by
    have hu : u.val = 0 := by omega
    have hv : v.val = 0 := by omega
    have hw : w.val = 0 := by omega
    rw [Shape.rowMajor_val_three, Shape.rowMajor_val_two]
    show 0 * 1 + 0 = (u.val * 1 + v.val) * 1 + w.val
    rw [hu, hv, hw])

/-- A block `[1, n, 1, a, b]` viewed as `[n, a, b]` reads, at `(k, i, j)`, the block at `(0, k, 0, i, j)`. -/
theorem shapeCast_1n1ab_nab_apply {n a b : ℕ} (x : (⟨5, ![1, n, 1, a, b]⟩ : Shape).Idx → α)
    (h : (⟨5, ![1, n, 1, a, b]⟩ : Shape).ShapeCasts ⟨3, ![n, a, b]⟩) (k : Fin n) (i : Fin a) (j : Fin b) :
    shapeCast ⟨3, ![n, a, b]⟩ x h (ix3 k i j) = x (ix5 (0 : Fin 1) k (0 : Fin 1) i j) :=
  shapeCast_apply x h _ _ (by
    rw [Shape.rowMajor_val_five, Shape.rowMajor_val_three]
    show (((0 * n + k.val) * 1 + 0) * a + i.val) * b + j.val = (k.val * a + i.val) * b + j.val
    simp only [Nat.zero_mul, Nat.zero_add, Nat.mul_one, Nat.add_zero])

/-- A block `[1, 1, a, b]` viewed as `[a, b]` reads, at `(i, j)`, the block at `(0, 0, i, j)`. -/
theorem shapeCast_11ab_ab_apply {a b : ℕ} (x : (⟨4, ![1, 1, a, b]⟩ : Shape).Idx → α)
    (h : (⟨4, ![1, 1, a, b]⟩ : Shape).ShapeCasts ⟨2, ![a, b]⟩) (i : Fin a) (j : Fin b) :
    shapeCast ⟨2, ![a, b]⟩ x h (ix2 i j) = x (ix4 (0 : Fin 1) (0 : Fin 1) i j) :=
  shapeCast_apply x h _ _ (by
    rw [Shape.rowMajor_val_four, Shape.rowMajor_val_two]
    show ((0 * 1 + 0) * a + i.val) * b + j.val = i.val * b + j.val
    simp only [Nat.zero_mul, Nat.zero_add])

/-- One matrix `[1, a, b]` repeated `n` times along a new leading axis reads, at `(m, i, j)`, the matrix at `(i, j)`. -/
theorem broadcastTo_1ab_nab_apply {n a b : ℕ} (v : (⟨3, ![1, a, b]⟩ : Shape).Idx → α)
    (h : (⟨3, ![1, a, b]⟩ : Shape).Broadcasts ⟨3, ![n, a, b]⟩) (m : Fin n) (i : Fin a) (j : Fin b) :
    broadcastTo ⟨3, ![n, a, b]⟩ v h (ix3 m i j) = v (ix3 (0 : Fin 1) i j) := by
  refine broadcastTo_apply v h (ix3 m i j) (ix3 (0 : Fin 1) i j) fun ax => ?_
  match ax with
  | ⟨0, _⟩ => rfl
  | ⟨1, _⟩ =>
    show i.val = if a = 1 then 0 else i.val
    split
    · have := i.isLt; omega
    · rfl
  | ⟨2, _⟩ =>
    show j.val = if b = 1 then 0 else j.val
    split
    · have := j.isLt; omega
    · rfl

/-- Member `k` of a stack `[n, a, b]` — sliced out as `[1, a, b]`, viewed as `[a, b]`, viewed as `[1, a, b]` again and
    repeated `n` times — reads, at `(m, i, j)`, the stack at `(k, i, j)`. -/
theorem memberSpread_apply {n a b : ℕ} (v : (⟨3, ![n, a, b]⟩ : Shape).Idx → α) (off : Fin 3 → ℕ) (k : Fin n)
    (hoff : off = ![k.val, 0, 0]) (hs : (⟨3, ![n, a, b]⟩ : Shape).Slices off ⟨3, ![1, a, b]⟩)
    (h1 : (⟨3, ![1, a, b]⟩ : Shape).ShapeCasts ⟨2, ![a, b]⟩) (h2 : (⟨2, ![a, b]⟩ : Shape).ShapeCasts ⟨3, ![1, a, b]⟩)
    (hb : (⟨3, ![1, a, b]⟩ : Shape).Broadcasts ⟨3, ![n, a, b]⟩) (m : Fin n) (i : Fin a) (j : Fin b) :
    broadcastTo ⟨3, ![n, a, b]⟩ (shapeCast ⟨3, ![1, a, b]⟩ (shapeCast ⟨2, ![a, b]⟩
      (extractStridedSlice ⟨3, ![1, a, b]⟩ off v hs) h1) h2) hb (ix3 m i j) = v (ix3 k i j) := by
  subst hoff
  refine (broadcastTo_1ab_nab_apply _ hb m i j).trans ?_
  refine (shapeCast_ab_1ab_apply _ h2 0 i j).trans ?_
  refine (shapeCast_1ab_ab_apply _ h1 i j).trans ?_
  refine extractStridedSlice_apply _ v hs _ _ fun ax => ?_
  match ax with
  | ⟨0, _⟩ => show k.val = k.val + 0; omega
  | ⟨1, _⟩ => show i.val = 0 + i.val; omega
  | ⟨2, _⟩ => show j.val = 0 + j.val; omega

end Layout

end Cert.Sums

end
-- ==== Proof.BlockValue.lean ====
/-
  One block of 1000 rows on the extended reals: the kernel's per-block arithmetic read at an index.

  For a block of predicted boxes and a block of truth boxes the body forms a [1000, 6] array of ratios and a [1000, 6]
  array of weights, multiplies them, sums each row, then sums the column of row sums, and adds the result to the running
  sum; the weights alone go the same way into the running count. Read at the accumulator's one entry, a step is: what
  the accumulator held, plus the double sum over the block's rows and boxes of the counted ratio (or of the weight).
  The weight the kernel computes through a minimum is the weight of the specification (`weight_by_min`).
-/
import proofs.«158714_j88493506166986_2_alg».proof.Proof.KernelPieces
import proofs.«158714_j88493506166986_2_alg».proof.Proof.BoxSpec
import proofs.«158714_j88493506166986_2_alg».proof.Proof.BoxLayout
import proofs.«158714_j88493506166986_2_alg».proof.Proof.LibKeepdims
import proofs.«158714_j88493506166986_2_alg».proof.Proof.LibSums
import Idealize.ShloMosaic.PureOps.Ideal.Laws
import Idealize.ShloMosaic.Lib.ValueIdx
import Idealize.ShloMosaic.Lib.Pipeline.Value

noncomputable section

open scoped BigOperators
open Idealize.ShloMosaic Idealize.ShloMosaic.ValueIdx

namespace Cert.KernelIdeal.BlockValue

open Cert.KernelIdeal Cert.KernelIdeal.Gen Cert.KernelIdeal.Pieces Cert.BoxSpec

/-! ## One block of 1000 rows, at the ideal instance -/

section Block
variable (x0 x1 : Vec Ideal S1000x6x4 .f32)

/-- The block's ratio at `(r, l)` is the intersection over union of predicted box `(r, l)` and truth box `(r, l)`. -/
theorem ratioV_apply (r : Fin 1000) (l : Fin 6) : ratioV (F := Ideal) x0 x1 (ix2 r l) = iouAt x0 x1 r l := by
  have e : ratioV (F := Ideal) x0 x1 (ix2 r l)
      = iouBox
          (shapeCast S1000x6 (extractStridedSlice S1000x6x1 ![0, 0, 0] x0 slices_S1000x6x4_o0_0_0_S1000x6x1) shapeCasts_S1000x6x1_S1000x6 (ix2 r l))
          (shapeCast S1000x6 (extractStridedSlice S1000x6x1 ![0, 0, 1] x0 slices_S1000x6x4_o0_0_1_S1000x6x1) shapeCasts_S1000x6x1_S1000x6 (ix2 r l))
          (shapeCast S1000x6 (extractStridedSlice S1000x6x1 ![0, 0, 2] x0 slices_S1000x6x4_o0_0_2_S1000x6x1) shapeCasts_S1000x6x1_S1000x6 (ix2 r l))
          (shapeCast S1000x6 (extractStridedSlice S1000x6x1 ![0, 0, 3] x0 slices_S1000x6x4_o0_0_3_S1000x6x1) shapeCasts_S1000x6x1_S1000x6 (ix2 r l))
          (shapeCast S1000x6 (extractStridedSlice S1000x6x1 ![0, 0, 0] x1 slices_S1000x6x4_o0_0_0_S1000x6x1) shapeCasts_S1000x6x1_S1000x6 (ix2 r l))
          (shapeCast S1000x6 (extractStridedSlice S1000x6x1 ![0, 0, 1] x1 slices_S1000x6x4_o0_0_1_S1000x6x1) shapeCasts_S1000x6x1_S1000x6 (ix2 r l))
          (shapeCast S1000x6 (extractStridedSlice S1000x6x1 ![0, 0, 2] x1 slices_S1000x6x4_o0_0_2_S1000x6x1) shapeCasts_S1000x6x1_S1000x6 (ix2 r l))
          (shapeCast S1000x6 (extractStridedSlice S1000x6x1 ![0, 0, 3] x1 slices_S1000x6x4_o0_0_3_S1000x6x1) shapeCasts_S1000x6x1_S1000x6 (ix2 r l)) := rfl
  rw [e, col_apply x0 0 ![0, 0, 0] rfl, col_apply x0 1 ![0, 0, 1] rfl, col_apply x0 2 ![0, 0, 2] rfl,
    col_apply x0 3 ![0, 0, 3] rfl, col_apply x1 0 ![0, 0, 0] rfl, col_apply x1 1 ![0, 0, 1] rfl,
    col_apply x1 2 ![0, 0, 2] rfl, col_apply x1 3 ![0, 0, 3] rfl]
  rfl

/-- The block's weight at `(r, l)`: 0 when truth box `(r, l)` is the sentinel box, 1 otherwise. -/
theorem weightV_apply (r : Fin 1000) (l : Fin 6) :
    k0_pay1 (F := Ideal) (sentV x1) onesI (ix2 r l) = weightAt x1 r l := by
  have e1 : k0_pay1 (F := Ideal) (sentV x1) onesI (ix2 r l)
      = FloatOps.sitofp (F := Ideal) .f32 (BitVec.setWidth 32 (IntOp.xori (sentV (F := Ideal) x1 (ix2 r l)) 1#1)) := rfl
  have e2 : sentV (F := Ideal) x1 (ix2 r l) = FloatOps.cmpf (F := Ideal) .ogt
      (multiReduction .minimumf [2] S1000x6
        (select (cmpf .oeq x1 (broadcast S1000x6x4 (Scalar.ofBits (F := Ideal) .f32 0xBF800000#32)))
          (broadcast S1000x6x4 (Scalar.ofBits (F := Ideal) .f32 0x3F800000#32))
          (broadcast S1000x6x4 (Scalar.ofBits (F := Ideal) .f32 0x00000000#32)))
        0x7F800000#32 reduces_S1000x6x4_S1000x6 (.inl rfl) rfl (ix2 r l))
      (Scalar.ofBits (F := Ideal) .f32 0x00000000#32) := rfl
  rw [e1, e2]
  refine (congrArg (fun z => FloatOps.sitofp (F := Ideal) .f32 (BitVec.setWidth 32 (IntOp.xori
    (FloatOps.cmpf (F := Ideal) .ogt z (Scalar.ofBits (F := Ideal) .f32 0x00000000#32)) 1#1)))
    (minLast_apply _ _ _ _ _ r l)).trans ?_
  exact weight_by_min _ _ _ _

/-- One step of the running sum, read at the accumulator's one entry: what it held plus the block's sum of counted ratios. -/
theorem sumStep_apply (acc : Vec Ideal S1x1 .f32) (i : S1x1.Idx) :
    sumStep (F := Ideal) x0 x1 acc i = acc i + ∑ r : Fin 1000, ∑ l : Fin 6, termAt x0 x1 r l := by
  obtain ⟨u, w, rfl⟩ : ∃ (u w : Fin 1), i = ix2 u w := ⟨i 0, i 1, eq_ix2 i⟩
  have e : sumStep (F := Ideal) x0 x1 acc
      = shapeCast S1x1 (addf acc (shapeCast S1x1 (multiReduction .add [0] S1
          (shapeCast S1000x1 (multiReduction .add [1] S1000 (mulf (ratioV x0 x1) (k0_pay1 (sentV x1) onesI))
            0x00000000#32 reduces_S1000x6_S1000 (.inl rfl) rfl) shapeCasts_S1000_S1000x1)
          0x00000000#32 reduces_S1000x1_S1 (.inl rfl) rfl) shapeCasts_S1_S1x1)) shapeCasts_S1x1_S1x1 := rfl
  rw [e, shapeCast_self]
  refine congrArg (fun z => acc (ix2 u w) + z) ?_
  refine (Cert.Sums.shapeCast_1_11_apply _ _ u w).trans ?_
  refine (Cert.Sums.colSum_apply _ _ _ _ _ 0).trans ?_
  refine Finset.sum_congr rfl fun r _ => ?_
  refine (Cert.Keepdims.shapeCast_a_a1_apply _ _ r 0).trans ?_
  refine (Cert.Keepdims.rowSum_apply _ _ _ _ _ r).trans ?_
  refine Finset.sum_congr rfl fun l _ => ?_
  show ratioV x0 x1 (ix2 r l) * k0_pay1 (sentV x1) onesI (ix2 r l) = _
  rw [ratioV_apply, weightV_apply]
  rfl

/-- One step of the running count: what it held plus the block's number of counted boxes. -/
theorem cntStep_apply (acc : Vec Ideal S1x1 .f32) (i : S1x1.Idx) :
    cntStep (F := Ideal) x1 acc i = acc i + ∑ r : Fin 1000, ∑ l : Fin 6, weightAt x1 r l := by
  obtain ⟨u, w, rfl⟩ : ∃ (u w : Fin 1), i = ix2 u w := ⟨i 0, i 1, eq_ix2 i⟩
  have e : cntStep (F := Ideal) x1 acc
      = shapeCast S1x1 (addf acc (shapeCast S1x1 (multiReduction .add [0] S1
          (shapeCast S1000x1 (multiReduction .add [1] S1000 (k0_pay1 (F := Ideal) (sentV x1) onesI)
            0x00000000#32 reduces_S1000x6_S1000 (.inl rfl) rfl) shapeCasts_S1000_S1000x1)
          0x00000000#32 reduces_S1000x1_S1 (.inl rfl) rfl) shapeCasts_S1_S1x1)) shapeCasts_S1x1_S1x1 := rfl
  rw [e, shapeCast_self]
  refine congrArg (fun z => acc (ix2 u w) + z) ?_
  refine (Cert.Sums.shapeCast_1_11_apply _ _ u w).trans ?_
  refine (Cert.Sums.colSum_apply _ _ _ _ _ 0).trans ?_
  refine Finset.sum_congr rfl fun r _ => ?_
  refine (Cert.Keepdims.shapeCast_a_a1_apply _ _ r 0).trans ?_
  refine (Cert.Keepdims.rowSum_apply _ _ _ _ _ r).trans ?_
  exact Finset.sum_congr rfl fun l _ => weightV_apply x1 r l

end Block

/-- The zero the running sum is reset to. -/
theorem pay5_apply (i : S1x1.Idx) : k0_pay5 (F := Ideal) i = zeroF := by
  have e : k0_pay5 (F := Ideal) = shapeCast S1x1 (broadcast S1x1 zeroF) shapeCasts_S1x1_S1x1 := rfl
  rw [e, shapeCast_self]; rfl

/-- The zero the running count is reset to. -/
theorem pay6_apply (i : S1x1.Idx) : k0_pay6 (F := Ideal) i = zeroF := by
  have e : k0_pay6 (F := Ideal) = shapeCast S1x1 (broadcast S1x1 zeroF) shapeCasts_S1x1_S1x1 := rfl
  rw [e, shapeCast_self]; rfl

/-- The stored mean, from the two totals. -/
theorem pay4_apply (s cnt : Vec Ideal S1x1 .f32) (i : S1x1.Idx) : k0_pay4 (F := Ideal) s cnt i = meanOf (s i) (cnt i) := rfl

end Cert.KernelIdeal.BlockValue

end
-- ==== Proof.LibTileSum.lean ====
/-
  Finite sums cut into tiles, running sums over the tiles, sums over a range padded with zeros, and the collapse of
  products with a vanishing factor on the extended reals.

  Over an additive commutative monoid: a sum of `a * b` terms is the sum over `a` tiles of the `b` terms of each
  tile; a running sum `g 0, g 0 + g 1, …` over eight tiles ends at the full sum; a sum whose terms vanish from some
  position on is the sum of the terms before it.  On the extended reals `0 * x = x * 0 = 0` for every `x` (the
  infinities included) and `r - r = 0` for a real `r`, so a product split along `x = x + (x - x)` loses its extra terms.
-/
import Mathlib.Algebra.BigOperators.Fin
import Mathlib.Data.Fintype.BigOperators
import Mathlib.Logic.Equiv.Fin.Basic
import Mathlib.Data.EReal.Inv

namespace Cert.LibTileSum

open scoped BigOperators

section Monoid
variable {M : Type*} [AddCommMonoid M]

/-- Position `q` of tile `j` (tiles of `b` terms, `a` of them) is below `a * b`. -/
theorem tile_lt {a b : ℕ} (j : Fin a) (q : Fin b) : b * j.val + q.val < a * b :=
  calc b * j.val + q.val < b * j.val + b := Nat.add_lt_add_left q.isLt _
    _ = b * (j.val + 1) := (Nat.mul_succ _ _).symm
    _ ≤ b * a := Nat.mul_le_mul_left _ j.isLt
    _ = a * b := Nat.mul_comm _ _

/-- A sum of `a * b` terms is the sum over the `a` tiles of the sums of the `b` terms of each tile. -/
theorem sum_tiles_mul (a b : ℕ) (f : Fin (a * b) → M) :
    ∑ k : Fin (a * b), f k = ∑ j : Fin a, ∑ q : Fin b, f ⟨b * j.val + q.val, tile_lt j q⟩ := by
  rw [← Equiv.sum_comp finProdFinEquiv f, Fintype.sum_prod_type]
  refine Finset.sum_congr rfl fun j _ => Finset.sum_congr rfl fun q _ => ?_
  exact congrArg f (Fin.ext (Nat.add_comm _ _))

/-- 6144 terms as 8 tiles of 768. -/
theorem sum_tiles (f : Fin 6144 → M) :
    ∑ k : Fin 6144, f k = ∑ j : Fin 8, ∑ q : Fin 768, f ⟨768 * j.val + q.val, by omega⟩ :=
  sum_tiles_mul 8 768 f

/-- The running sum over eight tiles: `g 0`, then one more tile's term at each step (nothing past the eighth). -/
def partialSum (g : Fin 8 → M) : ℕ → M
  | 0 => g 0
  | k + 1 => partialSum g k + (if h : k + 1 < 8 then g ⟨k + 1, h⟩ else 0)

@[simp] theorem partialSum_zero (g : Fin 8 → M) : partialSum g 0 = g 0 := rfl
theorem partialSum_succ (g : Fin 8 → M) (k : ℕ) (h : k + 1 < 8) :
    partialSum g (k + 1) = partialSum g k + g ⟨k + 1, h⟩ := by
  rw [partialSum, dif_pos h]

/-- After the eighth tile the running sum is the full sum. -/
theorem partialSum_seven (g : Fin 8 → M) : partialSum g 7 = ∑ j : Fin 8, g j := by
  rw [Fin.sum_univ_eight]
  show partialSum g (6 + 1) = _
  rw [partialSum_succ g 6 (by omega), partialSum_succ g 5 (by omega), partialSum_succ g 4 (by omega),
    partialSum_succ g 3 (by omega), partialSum_succ g 2 (by omega), partialSum_succ g 1 (by omega),
    partialSum_succ g 0 (by omega), partialSum_zero]
  rfl

/-- A sequence that starts at `g 0` and adds one tile's term at each step is the running sum, -/
theorem eq_partialSum (g : Fin 8 → M) (acc : ℕ → M) (h0 : acc 0 = g 0)
    (hs : ∀ (k : ℕ) (h : k + 1 < 8), acc (k + 1) = acc k + g ⟨k + 1, h⟩) :
    ∀ k : ℕ, k < 8 → acc k = partialSum g k
  | 0, _ => h0
  | k + 1, h => by rw [hs k h, partialSum_succ g k h, eq_partialSum g acc h0 hs k (by omega)]

/-- so its eighth value is the full sum; -/
theorem acc_seven (g : Fin 8 → M) (acc : ℕ → M) (h0 : acc 0 = g 0)
    (hs : ∀ (k : ℕ) (h : k + 1 < 8), acc (k + 1) = acc k + g ⟨k + 1, h⟩) : acc 7 = ∑ j : Fin 8, g j := by
  rw [eq_partialSum g acc h0 hs 7 (by omega), partialSum_seven]

/-- the same when the sequence starts from `z + g 0` with `z = 0`. -/
theorem acc_seven_of_zero (g : Fin 8 → M) (acc : ℕ → M) (z : M) (hz : z = 0) (h0 : acc 0 = z + g 0)
    (hs : ∀ (k : ℕ) (h : k + 1 < 8), acc (k + 1) = acc k + g ⟨k + 1, h⟩) : acc 7 = ∑ j : Fin 8, g j :=
  acc_seven g acc (by rw [h0, hz, zero_add]) hs

/-- A sum of `a + b` terms that vanish from position `a` on is the sum of the first `a`. -/
theorem sum_pad_add (a b : ℕ) (g : Fin (a + b) → M) (hz : ∀ k : Fin (a + b), a ≤ k.val → g k = 0) :
    ∑ k : Fin (a + b), g k = ∑ k : Fin a, g ⟨k.val, Nat.lt_add_right b k.isLt⟩ :=
  Fin.sum_trunc g fun j => hz _ (Nat.le_add_right a j.val)

/-- 896 terms that vanish from position 784 on. -/
theorem sum_pad (g : Fin 896 → M) (hz : ∀ k : Fin 896, 784 ≤ k.val → g k = 0) :
    ∑ k : Fin 896, g k = ∑ k : Fin 784, g ⟨k.val, by omega⟩ :=
  sum_pad_add 784 112 g hz

end Monoid

section ExtendedReals
variable {ι : Type*} [Fintype ι]

/-- A sum of products with zero on the left is zero. -/
theorem sum_zero_mul (f : ι → EReal) : ∑ k, 0 * f k = 0 := by simp only [zero_mul, Finset.sum_const_zero]
/-- A sum of products with zero on the right is zero. -/
theorem sum_mul_zero (f : ι → EReal) : ∑ k, f k * 0 = 0 := by simp only [mul_zero, Finset.sum_const_zero]

/-- A real minus itself is zero. -/
theorem sub_self_real (x : EReal) (hx : ∃ r : ℝ, x = (r : EReal)) : x - x = 0 := by
  obtain ⟨r, rfl⟩ := hx
  rw [← EReal.coe_sub, sub_self, EReal.coe_zero]

/-- `x * s + (x - x) * s = x * s` for a real `x`. -/
theorem mul_add_sub_self_mul (x s : EReal) (hx : ∃ r : ℝ, x = (r : EReal)) : x * s + (x - x) * s = x * s := by
  rw [sub_self_real x hx, zero_mul, add_zero]

/-- `x * w + x * (w - w) + (x - x) * w = x * w` for reals `x` and `w`. -/
theorem mul_add_mul_sub_self_add (x w : EReal) (hx : ∃ r : ℝ, x = (r : EReal)) (hw : ∃ r : ℝ, w = (r : EReal)) :
    x * w + x * (w - w) + (x - x) * w = x * w := by
  rw [sub_self_real x hx, sub_self_real w hw, zero_mul, mul_zero, add_zero, add_zero]

/-- The same under sums: `Σ a s + Σ (a - a) s = Σ a s` for real `a k`, -/
theorem sum_mul_add_sum_sub_self_mul (a s : ι → EReal) (ha : ∀ k, ∃ r : ℝ, a k = (r : EReal)) :
    ∑ k, a k * s k + ∑ k, (a k - a k) * s k = ∑ k, a k * s k := by
  simp only [fun k => sub_self_real (a k) (ha k), zero_mul, Finset.sum_const_zero, add_zero]

/-- and `Σ a w + Σ a (w - w) + Σ (a - a) w = Σ a w` for real `a k` and `w k`. -/
theorem sum_mul_add_sum_mul_sub_self_add (a w : ι → EReal) (ha : ∀ k, ∃ r : ℝ, a k = (r : EReal))
    (hw : ∀ k, ∃ r : ℝ, w k = (r : EReal)) :
    ∑ k, a k * w k + ∑ k, a k * (w k - w k) + ∑ k, (a k - a k) * w k = ∑ k, a k * w k := by
  simp only [fun k => sub_self_real (a k) (ha k), fun k => sub_self_real (w k) (hw k), zero_mul, mul_zero,
    Finset.sum_const_zero, add_zero]

end ExtendedReals

end Cert.LibTileSum
-- ==== Proof.KernelValue.lean ====
/-
  The kernel's result on the extended reals: the mean intersection over union of its two argument arrays.

  The grid has 1000 points; point `t` sees rows 1000·t … 1000·t + 999 of both arrays (`iblk0_apply`, `iblk1_apply`).
  Two [1, 1] accumulators are carried from point to point. By the fold of the per-point steps, after point `n` the
  first holds 0 plus the shares of blocks 0 … n of the total of counted ratios, and the second 0 plus their shares of the
  number of counted boxes (`sum_sweep`, `cnt_sweep`): a step adds, and addition of extended reals is commutative and
  associative, so no finiteness is needed. The 1000 shares of 1000 rows each add up to the double sums over the 1000000
  rows (`sum_all`, `cnt_all`: a sum of 1000 · 1000 terms cut into 1000 tiles). At the last point the body stores the mean
  formed from the two freshly updated accumulators (`last_value`); that point is the only one written back, and its
  block is the whole [1, 1] result array (`flushed_eq`, `final_o`).
-/
import proofs.«158714_j88493506166986_2_alg».proof.Proof.Gen.KernelIdeal.Value
import proofs.«158714_j88493506166986_2_alg».proof.Proof.KernelPieces
import proofs.«158714_j88493506166986_2_alg».proof.Proof.BlockValue
import proofs.«158714_j88493506166986_2_alg».proof.Proof.BoxSpec
import proofs.«158714_j88493506166986_2_alg».proof.Proof.LibTileSum
import Idealize.ShloMosaic.Lib.Pipeline.Value
import Idealize.ShloMosaic.Lib.ValueIdx

noncomputable section

open scoped BigOperators
open Idealize.ShloMosaic Idealize.ShloMosaic.TcCoe Idealize.ShloMosaic.ValueIdx Idealize.SL.Sem
open Idealize.ShloMosaic.Pipeline (Dat)

namespace Cert.KernelIdeal.Mean

open Cert.KernelIdeal Cert.KernelIdeal.Gen Cert.KernelIdeal.Pieces Cert.KernelIdeal.BlockValue Cert.BoxSpec

variable (m : (ℓ : Loc nD τ sig) → Buf (Elt Ideal) ℓ) (ρ : Dev nD → PrngReg)

/-- The predicted boxes on core `c`. -/
abbrev argP (c : Dev nD) : S1000000x6x4.Idx → EReal := m ((c : Thread nD τ).loc main_arg0)
/-- The truth boxes on core `c`. -/
abbrev argT (c : Dev nD) : S1000000x6x4.Idx → EReal := m ((c : Thread nD τ).loc main_arg1)

/-- Both input windows step one block of 1000 rows per grid point and sit at the origin of the other two axes. -/
theorem idx_facts : ∀ t : Fin cfg0.N,
    (win0_0.index t 0 = t.val ∧ win0_0.index t 1 = 0 ∧ win0_0.index t 2 = 0)
    ∧ (win0_1.index t 0 = t.val ∧ win0_1.index t 1 = 0 ∧ win0_1.index t 2 = 0) :=
  (by decide +kernel : ∀ t : Fin grid0.N,
    (win0_0.index t 0 = t.val ∧ win0_0.index t 1 = 0 ∧ win0_0.index t 2 = 0)
    ∧ (win0_1.index t 0 = t.val ∧ win0_1.index t 1 = 0 ∧ win0_1.index t 2 = 0))

theorem row_lt (t : Fin cfg0.N) (r : Fin 1000) : 1000 * t.val + r.val < 1000000 := by
  have h1 : t.val < 1000 := lt_of_lt_of_eq t.isLt (show cfg0.N = 1000 from N_0)
  have h2 := r.isLt
  omega

/-- Block `t` of the predicted boxes: row `r` of the block is row `1000·t + r` of the array. -/
theorem iblk0_apply (c : Dev nD) (t : Fin cfg0.N) (r : Fin 1000) (l : Fin 6) (k : Fin 4) :
    (iblk m c 0 t : Vec Ideal S1000x6x4 .f32) (ix3 r l k) = argP m c (ix3 ⟨1000 * t.val + r.val, row_lt t r⟩ l k) := by
  unfold iblk
  rw [View.read_apply]
  show V m c main_arg0 _ = _
  refine congrArg (m _) (funext fun a => Fin.ext ?_)
  match a with
  | ⟨0, _⟩ => show win0_0.index t 0 * 1000 + 1 * r.val = 1000 * t.val + r.val; rw [(idx_facts t).1.1]; omega
  | ⟨1, _⟩ => show win0_0.index t 1 * 6 + 1 * l.val = l.val; rw [(idx_facts t).1.2.1]; omega
  | ⟨2, _⟩ => show win0_0.index t 2 * 4 + 1 * k.val = k.val; rw [(idx_facts t).1.2.2]; omega

/-- Block `t` of the truth boxes, likewise. -/
theorem iblk1_apply (c : Dev nD) (t : Fin cfg0.N) (r : Fin 1000) (l : Fin 6) (k : Fin 4) :
    (iblk m c 1 t : Vec Ideal S1000x6x4 .f32) (ix3 r l k) = argT m c (ix3 ⟨1000 * t.val + r.val, row_lt t r⟩ l k) := by
  unfold iblk
  rw [View.read_apply]
  show V m c main_arg1 _ = _
  refine congrArg (m _) (funext fun a => Fin.ext ?_)
  match a with
  | ⟨0, _⟩ => show win0_1.index t 0 * 1000 + 1 * r.val = 1000 * t.val + r.val; rw [(idx_facts t).2.1]; omega
  | ⟨1, _⟩ => show win0_1.index t 1 * 6 + 1 * l.val = l.val; rw [(idx_facts t).2.2.1]; omega
  | ⟨2, _⟩ => show win0_1.index t 2 * 4 + 1 * k.val = k.val; rw [(idx_facts t).2.2.2]; omega

/-- The counted ratio of box `(r, l)` of block `t` is that of box `(1000·t + r, l)` of the arrays. -/
theorem term_blk (c : Dev nD) (t : Fin cfg0.N) (r : Fin 1000) (l : Fin 6) :
    termAt (iblk m c 0 t : Vec Ideal S1000x6x4 .f32) (iblk m c 1 t : Vec Ideal S1000x6x4 .f32) r l
      = termAt (argP m c) (argT m c) ⟨1000 * t.val + r.val, row_lt t r⟩ l := by
  simp only [termAt, iouAt, weightAt, iblk0_apply, iblk1_apply]

/-- The weight of box `(r, l)` of block `t` is that of box `(1000·t + r, l)` of the truth array. -/
theorem weight_blk (c : Dev nD) (t : Fin cfg0.N) (r : Fin 1000) (l : Fin 6) :
    weightAt (iblk m c 1 t : Vec Ideal S1000x6x4 .f32) r l = weightAt (argT m c) ⟨1000 * t.val + r.val, row_lt t r⟩ l := by
  simp only [weightAt, iblk1_apply]

/-- Block `n`'s share of the total of counted ratios (0 past the grid, where it is never used). -/
def sumOf (c : Dev nD) (n : ℕ) : EReal :=
  if h : n < 1000 then ∑ r : Fin 1000, ∑ l : Fin 6, termAt (argP m c) (argT m c) ⟨1000 * n + r.val, by have := r.isLt; omega⟩ l else 0

/-- Block `n`'s share of the number of counted boxes. -/
def cntOf (c : Dev nD) (n : ℕ) : EReal :=
  if h : n < 1000 then ∑ r : Fin 1000, ∑ l : Fin 6, weightAt (argT m c) ⟨1000 * n + r.val, by have := r.isLt; omega⟩ l else 0

theorem block_sum (c : Dev nD) (t : Fin cfg0.N) :
    ∑ r : Fin 1000, ∑ l : Fin 6, termAt (iblk m c 0 t : Vec Ideal S1000x6x4 .f32) (iblk m c 1 t : Vec Ideal S1000x6x4 .f32) r l
      = sumOf m c t.val := by
  have h : t.val < 1000 := lt_of_lt_of_eq t.isLt (show cfg0.N = 1000 from N_0)
  rw [sumOf, dif_pos h]
  exact Finset.sum_congr rfl fun r _ => Finset.sum_congr rfl fun l _ => term_blk m c t r l

theorem block_cnt (c : Dev nD) (t : Fin cfg0.N) :
    ∑ r : Fin 1000, ∑ l : Fin 6, weightAt (iblk m c 1 t : Vec Ideal S1000x6x4 .f32) r l = cntOf m c t.val := by
  have h : t.val < 1000 := lt_of_lt_of_eq t.isLt (show cfg0.N = 1000 from N_0)
  rw [cntOf, dif_pos h]
  exact Finset.sum_congr rfl fun r _ => Finset.sum_congr rfl fun l _ => weight_blk m c t r l

/-! ## The two accumulators after each grid point -/

/-- After point `n` the running sum holds 0 plus the shares of blocks 0 … n. -/
theorem sum_sweep (c : Dev nD) (n : ℕ) (hn : n < cfg0.N) (i : S1x1.Idx) :
    (outsAt0 m c n hn).2.1 i = zeroF + ∑ s ∈ Finset.range (n + 1), sumOf m c s := by
  have hN : cfg0.N = 1000 := N_0
  rw [Value.soutsAt0_0_sweep m c n hn]
  have key := Pipeline.accAt_add_apply (N := cfg0.N)
    (fun n h => Value.scAt0_0 m c n h (VS0_0.read (Elt Ideal) VS0_0.junk)) (Value.scAt0_0 m c)
    (fun _ => zeroF) (fun s _ => sumOf m c s) 0 999
    (fun h i => by
      unfold Value.scAt0_0
      rw [dif_pos (Nat.zero_mod _), dif_neg (by decide), sA0, sumStep_apply, pay5_apply, block_sum])
    (fun n h acc i h0 h9 => by
      have hne : ¬n % 1000 = 0 := by omega
      unfold Value.scAt0_0
      rw [dif_neg hne]
      by_cases h1 : n % 1000 = 999
      · rw [dif_pos h1, sC0, sumStep_apply, block_sum]
      · rw [dif_neg h1, sB0, sumStep_apply, block_sum])
    n (by omega) (by omega) i
  simpa only [Nat.zero_add] using key

/-- After point `n` the running count holds 0 plus the shares of blocks 0 … n. -/
theorem cnt_sweep (c : Dev nD) (n : ℕ) (hn : n < cfg0.N) (i : S1x1.Idx) :
    (outsAt0 m c n hn).2.2 i = zeroF + ∑ s ∈ Finset.range (n + 1), cntOf m c s := by
  have hN : cfg0.N = 1000 := N_0
  rw [Value.soutsAt0_1_sweep m c n hn]
  have key := Pipeline.accAt_add_apply (N := cfg0.N)
    (fun n h => Value.scAt0_1 m c n h (VS0_1.read (Elt Ideal) VS0_1.junk)) (Value.scAt0_1 m c)
    (fun _ => zeroF) (fun s _ => cntOf m c s) 0 999
    (fun h i => by
      unfold Value.scAt0_1
      rw [dif_pos (Nat.zero_mod _), dif_neg (by decide), sA1, cntStep_apply, pay6_apply, block_cnt])
    (fun n h acc i h0 h9 => by
      have hne : ¬n % 1000 = 0 := by omega
      unfold Value.scAt0_1
      rw [dif_neg hne]
      by_cases h1 : n % 1000 = 999
      · rw [dif_pos h1, sC1, cntStep_apply, block_cnt]
      · rw [dif_neg h1, sB1, cntStep_apply, block_cnt])
    n (by omega) (by omega) i
  simpa only [Nat.zero_add] using key

/-! ## The shares of the 1000 blocks add up to the totals over the 1000000 rows -/

theorem sum_all (c : Dev nD) :
    ∑ s ∈ Finset.range 1000, sumOf m c s = ∑ r : Fin 1000000, ∑ l : Fin 6, termAt (argP m c) (argT m c) r l := by
  rw [← Fin.sum_univ_eq_sum_range (fun s => sumOf m c s) 1000]
  refine Eq.trans ?_ (Cert.LibTileSum.sum_tiles_mul 1000 1000
    (fun R : Fin (1000 * 1000) => ∑ l : Fin 6, termAt (argP m c) (argT m c) R l)).symm
  refine Finset.sum_congr rfl fun j _ => ?_
  rw [sumOf, dif_pos j.isLt]

theorem cnt_all (c : Dev nD) :
    ∑ s ∈ Finset.range 1000, cntOf m c s = ∑ r : Fin 1000000, ∑ l : Fin 6, weightAt (argT m c) r l := by
  rw [← Fin.sum_univ_eq_sum_range (fun s => cntOf m c s) 1000]
  refine Eq.trans ?_ (Cert.LibTileSum.sum_tiles_mul 1000 1000
    (fun R : Fin (1000 * 1000) => ∑ l : Fin 6, weightAt (argT m c) R l)).symm
  refine Finset.sum_congr rfl fun j _ => ?_
  rw [cntOf, dif_pos j.isLt]

/-! ## The one write-back, the result array, and the run -/

/-- The output window sits at block (0, 0) at every point. -/
theorem out_idx : ∀ t : Fin cfg0.N, win0_2.index t 0 = 0 ∧ win0_2.index t 1 = 0 :=
  (by decide +kernel : ∀ t : Fin grid0.N, win0_2.index t 0 = 0 ∧ win0_2.index t 1 = 0)

/-- THE MEAN: what the last point stores is the specification's result of the two argument arrays. -/
theorem last_value (c : Dev nD) (t : Fin cfg0.N) (ht : t.val = 999) (hp : t.val - 1 < cfg0.N) :
    k0_pay4 (F := Ideal)
      (sumStep (iblk m c 0 t) (iblk m c 1 t) (outsAt0 m c (t.val - 1) hp).2.1)
      (cntStep (iblk m c 1 t) (outsAt0 m c (t.val - 1) hp).2.2)
      = meanIou (argP m c) (argT m c) := by
  funext i
  rw [pay4_apply, sumStep_apply, cntStep_apply, sum_sweep, cnt_sweep, block_sum, block_cnt]
  have e : t.val - 1 + 1 = 999 := by omega
  rw [e, ht, add_assoc, add_assoc, ← Finset.sum_range_succ (fun s => sumOf m c s) 999,
    ← Finset.sum_range_succ (fun s => cntOf m c s) 999, sum_all, cnt_all]
  rfl

/-- The write-back at the last point writes the mean: the output's one block is the whole [1, 1] array. -/
theorem flushed_eq (c : Dev nD) (t : Fin cfg0.N) (hf : (cfg0.win 2).flush t = true) :
    (dats m 0 c).flushed 2 t = ((cfg0.win 2).blk t).view.read (Elt Ideal) (meanIou (argP m c) (argT m c)) := by
  have hN : cfg0.N = 1000 := N_0
  have h9 : t.val % 1000 = 999 := (flush0_2 t).mp hf
  have ht : t.val = 999 := by have := t.isLt; omega
  have h0 : ¬t.val % 1000 = 0 := by omega
  rw [Value.flushed2_C m c t h0 h9, oC2, last_value m c t ht]
  have hz' : (fun a => win0_2.index t a * main_v0.ty.shape.size a) = fun _ => 0 := funext fun a => by
    match a with
    | ⟨0, _⟩ => show win0_2.index t 0 * 1 = 0; rw [(out_idx t).1]
    | ⟨1, _⟩ => show win0_2.index t 1 * 1 = 0; rw [(out_idx t).2]
  exact (Memref.read_access_unit_zero (Elt Ideal) main_v0 hz' (fun a => by rw [congrFun hz' a]; simp)
    (meanIou (argP m c) (argT m c))).symm

/-- The last grid point. -/
abbrev tLast : Fin cfg0.N := ⟨999, by rw [show cfg0.N = 1000 from N_0]; decide⟩

/-- So the result array ends holding the mean: the last point's block covers it. -/
theorem final_o (c : Dev nD) : (dats m 0 c).arrAt 2 cfg0.N = meanIou (argP m c) (argT m c) :=
  (dats m 0 c).arrAt_eq_of_cover 2 (meanIou (argP m c) (argT m c)) (flushed_eq m c) fun i =>
    ⟨tLast, (flush0_2 tLast).mpr rfl, by
      show i ∈ ((View.whole main_v0).slice (win0_2.rect tLast)).set
      rw [View.set_slice_whole, Rect.mem_set_unit]
      intro a
      have h0 : (i 0 : Nat) < 1 := (i 0).isLt
      have h1 : (i 1 : Nat) < 1 := (i 1).isLt
      match a with
      | ⟨0, _⟩ =>
        show win0_2.index tLast 0 * win0_2.size 0 ≤ (i 0 : Nat)
          ∧ (i 0 : Nat) < win0_2.index tLast 0 * win0_2.size 0 + win0_2.xsize (grid0.coords tLast) 0
        rw [show win0_2.index tLast 0 * win0_2.size 0 = 0 from by decide +kernel,
          show win0_2.xsize (grid0.coords tLast) 0 = 1 from by decide +kernel]
        omega
      | ⟨1, _⟩ =>
        show win0_2.index tLast 1 * win0_2.size 1 ≤ (i 1 : Nat)
          ∧ (i 1 : Nat) < win0_2.index tLast 1 * win0_2.size 1 + win0_2.xsize (grid0.coords tLast) 1
        rw [show win0_2.index tLast 1 * win0_2.size 1 = 0 from by decide +kernel,
          show win0_2.xsize (grid0.coords tLast) 1 = 1 from by decide +kernel]
        omega⟩

/-- THE KERNEL'S RUN, READ: every weakly fair execution terminates with the result array at the mean intersection over
    union of the two argument arrays, the arguments unchanged. -/
theorem run : θ_run defs (onTc (τ := τ) (main (F := Ideal))) ⟨m, fun _ => 0, ρ⟩ fun r => ∀ c : Dev nD,
      r.2.mem ((c : Thread nD τ).loc main_v0) = meanIou (argP m c) (argT m c)
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => ⟨(h c).1.trans (final_o m c), (h c).2⟩) (Value.run_blocks m ρ)

end Cert.KernelIdeal.Mean
end
-- ==== Proof.RefValue.lean ====
/-
  The reference on the extended reals, read against the specification.

  The reference computes, over the whole [1000000, 6] array of boxes at once: the eight edges (each centre ∓ or ± the
  extent divided by 2), the overlap clipped at 0, the two absolute areas, the ratio; the weight of each truth box as the
  negated conjunction of its four "equals −1" bits; the total of ratio × weight and the total of the weights as sums over
  every box; and the mean. Box by box this is the specification's counted ratio and weight (dividing by 2 is multiplying
  by ½), a sum over all [1000000, 6] positions is the double sum over rows and boxes, and the final
  select / divide / maximum is the specification's mean of the two totals.
-/
import proofs.«158714_j88493506166986_2_alg».proof.Proof.RefRead
import proofs.«158714_j88493506166986_2_alg».proof.Proof.BoxSpec
import proofs.«158714_j88493506166986_2_alg».proof.Proof.BoxLayout
import Idealize.ShloMosaic.PureOps.Ideal.Laws
import Idealize.ShloMosaic.Lib.ValueIdx
import Idealize.ShloMosaic.Lib.Pipeline.Value

noncomputable section

open scoped BigOperators
open Idealize.ShloMosaic Idealize.ShloMosaic.ValueIdx

namespace Cert.ReferenceIdeal.RefValue

open Cert.ReferenceIdeal Cert.ReferenceIdeal.Gen Cert.ReferenceIdeal.ReadP Cert.BoxSpec

/-- A lower edge as the reference writes it, centre minus extent over 2. -/
theorem edge_lo (a b : EReal) : a - Ideal.div b (FloatOps.ofBits (F := Ideal) .f32 0x40000000#32) = lo a b := by
  show a - Ideal.div b twoF = _
  rw [div_two]; rfl

/-- An upper edge as the reference writes it, centre plus extent over 2. -/
theorem edge_hi (a b : EReal) : a + Ideal.div b (FloatOps.ofBits (F := Ideal) .f32 0x40000000#32) = hi a b := by
  show a + Ideal.div b twoF = _
  rw [div_two]; rfl

variable (x0 x1 : S1000000x6x4.Idx → EReal)

/-! ## The sixteen column reads: entry `k` of every predicted (`x0`) or truth (`x1`) box -/

theorem c5 (r : Fin 1000000) (l : Fin 6) : val_main_v5 (F := Ideal) x0 (ix2 r l) = x0 (ix3 r l 0) :=
  col_apply x0 0 ![0, 0, 0] rfl slices_S1000000x6x4_S1000000x6x1_0_0_0 shapeCasts_S1000000x6x1_S1000000x6 r l
theorem c7 (r : Fin 1000000) (l : Fin 6) : val_main_v7 (F := Ideal) x0 (ix2 r l) = x0 (ix3 r l 2) :=
  col_apply x0 2 ![0, 0, 2] rfl slices_S1000000x6x4_S1000000x6x1_0_0_2 shapeCasts_S1000000x6x1_S1000000x6 r l
theorem c12 (r : Fin 1000000) (l : Fin 6) : val_main_v12 (F := Ideal) x0 (ix2 r l) = x0 (ix3 r l 1) :=
  col_apply x0 1 ![0, 0, 1] rfl slices_S1000000x6x4_S1000000x6x1_0_0_1 shapeCasts_S1000000x6x1_S1000000x6 r l
theorem c14 (r : Fin 1000000) (l : Fin 6) : val_main_v14 (F := Ideal) x0 (ix2 r l) = x0 (ix3 r l 3) :=
  col_apply x0 3 ![0, 0, 3] rfl slices_S1000000x6x4_S1000000x6x1_0_0_3 shapeCasts_S1000000x6x1_S1000000x6 r l
theorem c19 (r : Fin 1000000) (l : Fin 6) : val_main_v19 (F := Ideal) x0 (ix2 r l) = x0 (ix3 r l 0) :=
  col_apply x0 0 ![0, 0, 0] rfl slices_S1000000x6x4_S1000000x6x1_0_0_0 shapeCasts_S1000000x6x1_S1000000x6 r l
theorem c21 (r : Fin 1000000) (l : Fin 6) : val_main_v21 (F := Ideal) x0 (ix2 r l) = x0 (ix3 r l 2) :=
  col_apply x0 2 ![0, 0, 2] rfl slices_S1000000x6x4_S1000000x6x1_0_0_2 shapeCasts_S1000000x6x1_S1000000x6 r l
theorem c26 (r : Fin 1000000) (l : Fin 6) : val_main_v26 (F := Ideal) x0 (ix2 r l) = x0 (ix3 r l 1) :=
  col_apply x0 1 ![0, 0, 1] rfl slices_S1000000x6x4_S1000000x6x1_0_0_1 shapeCasts_S1000000x6x1_S1000000x6 r l
theorem c28 (r : Fin 1000000) (l : Fin 6) : val_main_v28 (F := Ideal) x0 (ix2 r l) = x0 (ix3 r l 3) :=
  col_apply x0 3 ![0, 0, 3] rfl slices_S1000000x6x4_S1000000x6x1_0_0_3 shapeCasts_S1000000x6x1_S1000000x6 r l
theorem c33 (r : Fin 1000000) (l : Fin 6) : val_main_v33 (F := Ideal) x1 (ix2 r l) = x1 (ix3 r l 0) :=
  col_apply x1 0 ![0, 0, 0] rfl slices_S1000000x6x4_S1000000x6x1_0_0_0 shapeCasts_S1000000x6x1_S1000000x6 r l
theorem c35 (r : Fin 1000000) (l : Fin 6) : val_main_v35 (F := Ideal) x1 (ix2 r l) = x1 (ix3 r l 2) :=
  col_apply x1 2 ![0, 0, 2] rfl slices_S1000000x6x4_S1000000x6x1_0_0_2 shapeCasts_S1000000x6x1_S1000000x6 r l
theorem c40 (r : Fin 1000000) (l : Fin 6) : val_main_v40 (F := Ideal) x1 (ix2 r l) = x1 (ix3 r l 1) :=
  col_apply x1 1 ![0, 0, 1] rfl slices_S1000000x6x4_S1000000x6x1_0_0_1 shapeCasts_S1000000x6x1_S1000000x6 r l
theorem c42 (r : Fin 1000000) (l : Fin 6) : val_main_v42 (F := Ideal) x1 (ix2 r l) = x1 (ix3 r l 3) :=
  col_apply x1 3 ![0, 0, 3] rfl slices_S1000000x6x4_S1000000x6x1_0_0_3 shapeCasts_S1000000x6x1_S1000000x6 r l
theorem c47 (r : Fin 1000000) (l : Fin 6) : val_main_v47 (F := Ideal) x1 (ix2 r l) = x1 (ix3 r l 0) :=
  col_apply x1 0 ![0, 0, 0] rfl slices_S1000000x6x4_S1000000x6x1_0_0_0 shapeCasts_S1000000x6x1_S1000000x6 r l
theorem c49 (r : Fin 1000000) (l : Fin 6) : val_main_v49 (F := Ideal) x1 (ix2 r l) = x1 (ix3 r l 2) :=
  col_apply x1 2 ![0, 0, 2] rfl slices_S1000000x6x4_S1000000x6x1_0_0_2 shapeCasts_S1000000x6x1_S1000000x6 r l
theorem c54 (r : Fin 1000000) (l : Fin 6) : val_main_v54 (F := Ideal) x1 (ix2 r l) = x1 (ix3 r l 1) :=
  col_apply x1 1 ![0, 0, 1] rfl slices_S1000000x6x4_S1000000x6x1_0_0_1 shapeCasts_S1000000x6x1_S1000000x6 r l
theorem c56 (r : Fin 1000000) (l : Fin 6) : val_main_v56 (F := Ideal) x1 (ix2 r l) = x1 (ix3 r l 3) :=
  col_apply x1 3 ![0, 0, 3] rfl slices_S1000000x6x4_S1000000x6x1_0_0_3 shapeCasts_S1000000x6x1_S1000000x6 r l

/-! ## The eight edges -/

theorem e10 (r : Fin 1000000) (l : Fin 6) :
    val_main_v10 (F := Ideal) x0 (ix2 r l) = lo (x0 (ix3 r l 0)) (x0 (ix3 r l 2)) := by
  have e : val_main_v10 (F := Ideal) x0 (ix2 r l)
      = val_main_v5 (F := Ideal) x0 (ix2 r l) - Ideal.div (val_main_v7 (F := Ideal) x0 (ix2 r l)) (val_main_v8 (F := Ideal) (ix2 r l)) := rfl
  rw [e, val_main_v8_apply, val_main_cst_0_apply, c5, c7]
  exact edge_lo _ _

theorem e17 (r : Fin 1000000) (l : Fin 6) :
    val_main_v17 (F := Ideal) x0 (ix2 r l) = lo (x0 (ix3 r l 1)) (x0 (ix3 r l 3)) := by
  have e : val_main_v17 (F := Ideal) x0 (ix2 r l)
      = val_main_v12 (F := Ideal) x0 (ix2 r l) - Ideal.div (val_main_v14 (F := Ideal) x0 (ix2 r l)) (val_main_v15 (F := Ideal) (ix2 r l)) := rfl
  rw [e, val_main_v15_apply, val_main_cst_1_apply, c12, c14]
  exact edge_lo _ _

theorem e24 (r : Fin 1000000) (l : Fin 6) :
    val_main_v24 (F := Ideal) x0 (ix2 r l) = hi (x0 (ix3 r l 0)) (x0 (ix3 r l 2)) := by
  have e : val_main_v24 (F := Ideal) x0 (ix2 r l)
      = val_main_v19 (F := Ideal) x0 (ix2 r l) + Ideal.div (val_main_v21 (F := Ideal) x0 (ix2 r l)) (val_main_v22 (F := Ideal) (ix2 r l)) := rfl
  rw [e, val_main_v22_apply, val_main_cst_2_apply, c19, c21]
  exact edge_hi _ _

theorem e31 (r : Fin 1000000) (l : Fin 6) :
    val_main_v31 (F := Ideal) x0 (ix2 r l) = hi (x0 (ix3 r l 1)) (x0 (ix3 r l 3)) := by
  have e : val_main_v31 (F := Ideal) x0 (ix2 r l)
      = val_main_v26 (F := Ideal) x0 (ix2 r l) + Ideal.div (val_main_v28 (F := Ideal) x0 (ix2 r l)) (val_main_v29 (F := Ideal) (ix2 r l)) := rfl
  rw [e, val_main_v29_apply, val_main_cst_3_apply, c26, c28]
  exact edge_hi _ _

theorem e38 (r : Fin 1000000) (l : Fin 6) :
    val_main_v38 (F := Ideal) x1 (ix2 r l) = lo (x1 (ix3 r l 0)) (x1 (ix3 r l 2)) := by
  have e : val_main_v38 (F := Ideal) x1 (ix2 r l)
      = val_main_v33 (F := Ideal) x1 (ix2 r l) - Ideal.div (val_main_v35 (F := Ideal) x1 (ix2 r l)) (val_main_v36 (F := Ideal) (ix2 r l)) := rfl
  rw [e, val_main_v36_apply, val_main_cst_4_apply, c33, c35]
  exact edge_lo _ _

theorem e45 (r : Fin 1000000) (l : Fin 6) :
    val_main_v45 (F := Ideal) x1 (ix2 r l) = lo (x1 (ix3 r l 1)) (x1 (ix3 r l 3)) := by
  have e : val_main_v45 (F := Ideal) x1 (ix2 r l)
      = val_main_v40 (F := Ideal) x1 (ix2 r l) - Ideal.div (val_main_v42 (F := Ideal) x1 (ix2 r l)) (val_main_v43 (F := Ideal) (ix2 r l)) := rfl
  rw [e, val_main_v43_apply, val_main_cst_5_apply, c40, c42]
  exact edge_lo _ _

theorem e52 (r : Fin 1000000) (l : Fin 6) :
    val_main_v52 (F := Ideal) x1 (ix2 r l) = hi (x1 (ix3 r l 0)) (x1 (ix3 r l 2)) := by
  have e : val_main_v52 (F := Ideal) x1 (ix2 r l)
      = val_main_v47 (F := Ideal) x1 (ix2 r l) + Ideal.div (val_main_v49 (F := Ideal) x1 (ix2 r l)) (val_main_v50 (F := Ideal) (ix2 r l)) := rfl
  rw [e, val_main_v50_apply, val_main_cst_6_apply, c47, c49]
  exact edge_hi _ _

theorem e59 (r : Fin 1000000) (l : Fin 6) :
    val_main_v59 (F := Ideal) x1 (ix2 r l) = hi (x1 (ix3 r l 1)) (x1 (ix3 r l 3)) := by
  have e : val_main_v59 (F := Ideal) x1 (ix2 r l)
      = val_main_v54 (F := Ideal) x1 (ix2 r l) + Ideal.div (val_main_v56 (F := Ideal) x1 (ix2 r l)) (val_main_v57 (F := Ideal) (ix2 r l)) := rfl
  rw [e, val_main_v57_apply, val_main_cst_7_apply, c54, c56]
  exact edge_hi _ _

/-! ## The ratio, the weight and their product at a box -/

/-- The reference's ratio at `(r, l)` is the intersection over union of predicted box `(r, l)` and truth box `(r, l)`. -/
theorem ratio_apply (r : Fin 1000000) (l : Fin 6) : val_main_v81 (F := Ideal) x0 x1 (ix2 r l) = iouAt x0 x1 r l := by
  have e : val_main_v81 (F := Ideal) x0 x1 (ix2 r l)
      = Ideal.div
          (max (val_main_call0_v1 (F := Ideal) (ix2 r l))
              (min (val_main_v24 (F := Ideal) x0 (ix2 r l)) (val_main_v52 (F := Ideal) x1 (ix2 r l))
                - max (val_main_v10 (F := Ideal) x0 (ix2 r l)) (val_main_v38 (F := Ideal) x1 (ix2 r l)))
            * max (val_main_call1_v1 (F := Ideal) (ix2 r l))
              (min (val_main_v31 (F := Ideal) x0 (ix2 r l)) (val_main_v59 (F := Ideal) x1 (ix2 r l))
                - max (val_main_v17 (F := Ideal) x0 (ix2 r l)) (val_main_v45 (F := Ideal) x1 (ix2 r l))))
          (absE ((val_main_v24 (F := Ideal) x0 (ix2 r l) - val_main_v10 (F := Ideal) x0 (ix2 r l))
                * (val_main_v31 (F := Ideal) x0 (ix2 r l) - val_main_v17 (F := Ideal) x0 (ix2 r l)))
            + absE ((val_main_v52 (F := Ideal) x1 (ix2 r l) - val_main_v38 (F := Ideal) x1 (ix2 r l))
                * (val_main_v59 (F := Ideal) x1 (ix2 r l) - val_main_v45 (F := Ideal) x1 (ix2 r l)))
            - max (val_main_call0_v1 (F := Ideal) (ix2 r l))
                (min (val_main_v24 (F := Ideal) x0 (ix2 r l)) (val_main_v52 (F := Ideal) x1 (ix2 r l))
                  - max (val_main_v10 (F := Ideal) x0 (ix2 r l)) (val_main_v38 (F := Ideal) x1 (ix2 r l)))
              * max (val_main_call1_v1 (F := Ideal) (ix2 r l))
                (min (val_main_v31 (F := Ideal) x0 (ix2 r l)) (val_main_v59 (F := Ideal) x1 (ix2 r l))
                  - max (val_main_v17 (F := Ideal) x0 (ix2 r l)) (val_main_v45 (F := Ideal) x1 (ix2 r l)))
            + val_main_v79 (F := Ideal) (ix2 r l)) := rfl
  have z0 : val_main_call0_v1 (F := Ideal) (ix2 r l) = zeroF := by
    rw [val_main_call0_v1_apply, val_main_call0_v0_apply]; exact sitofp_zero
  have z1 : val_main_call1_v1 (F := Ideal) (ix2 r l) = zeroF := by
    rw [val_main_call1_v1_apply, val_main_call1_v0_apply]; exact sitofp_zero
  have ze : val_main_v79 (F := Ideal) (ix2 r l) = epsF := by
    rw [val_main_v79_apply, val_main_cst_10_apply]; rfl
  rw [e, z0, z1, ze, e10, e17, e24, e31, e38, e45, e52, e59]
  rfl

/-- The reference's weight at `(r, l)`: 0 when truth box `(r, l)` is the sentinel box, 1 otherwise. -/
theorem weight_apply (r : Fin 1000000) (l : Fin 6) : val_main_v82 (F := Ideal) x1 (ix2 r l) = weightAt x1 r l := by
  have e : val_main_v82 (F := Ideal) x1 (ix2 r l)
      = ((((~~~(Host.reduce IntOp.andi (val_main_v1 (F := Ideal) x1) (val_main_c (F := Ideal))
            reducesTo_S1000000x6x4_S1000000x6_d2 h_S_ (ix2 r l))).toNat : ℝ)) : EReal) := rfl
  rw [e, andLast_apply _ _ _ (by decide) _ r l]
  rfl

/-- Their product is the counted ratio. -/
theorem term_apply (r : Fin 1000000) (l : Fin 6) : val_main_v83 (F := Ideal) x0 x1 (ix2 r l) = termAt x0 x1 r l := by
  rw [val_main_v83_apply, ratio_apply, weight_apply]; rfl

/-! ## The two totals and the mean -/

/-- The total of the counted ratios: the initial 0 plus the double sum over rows and boxes. -/
theorem total_apply (i : S_.Idx) :
    val_main_v84 (F := Ideal) x0 x1 i = zeroF + ∑ r : Fin 1000000, ∑ l : Fin 6, termAt x0 x1 r l := by
  rw [val_main_v84_apply, sum_idx2]
  refine congrArg₂ (· + ·) rfl (Finset.sum_congr rfl fun r _ => Finset.sum_congr rfl fun l _ => term_apply x0 x1 r l)

/-- The number of counted boxes: the initial 0 plus the double sum of the weights. -/
theorem count_apply (i : S_.Idx) :
    val_main_v85 (F := Ideal) x1 i = zeroF + ∑ r : Fin 1000000, ∑ l : Fin 6, weightAt x1 r l := by
  rw [val_main_v85_apply, sum_idx2]
  refine congrArg₂ (· + ·) rfl (Finset.sum_congr rfl fun r _ => Finset.sum_congr rfl fun l _ => weight_apply x1 r l)

/-- THE REFERENCE IS THE SPECIFICATION: its [1, 1] result is the mean intersection over union of the two arguments. -/
theorem result_eq : val_main_v90 (F := Ideal) x0 x1 = meanIou x0 x1 := by
  funext i
  have hi : val_main_v90 (F := Ideal) x0 x1 i = val_main_v89 (F := Ideal) x0 x1 ix0 := by
    unfold val_main_v90
    refine shapeCast_apply _ shapeCasts_S_S1x1 i ix0 ?_
    have h1 : (S_.rowMajor ix0).val < 1 := (S_.rowMajor ix0).isLt
    have h2 : (S1x1.rowMajor i).val < 1 := (S1x1.rowMajor i).isLt
    omega
  rw [hi, val_main_v89_apply, val_main_v86_apply, val_main_v88_apply, val_main_v87_apply, val_main_call2_v0_apply,
    total_apply, count_apply]
  rfl

end Cert.ReferenceIdeal.RefValue

end
-- ==== Proof.lean ====
/-
  The certificate of the mean-IoU kernel against its reference: `Cert.Claim`.

  The kernel streams the [1000000, 6, 4] arrays of predicted and truth boxes through 1000 grid points of 1000 rows,
  keeping a running sum of the counted intersection-over-union ratios and a running count of the counted boxes, and
  stores sum / max(count, 1) (or 0 when nothing counts) at the last point. The reference computes the same ratios and
  weights over the whole arrays, sums them at once, and forms the same mean.

  * The three frames: the two kernel programs' are the generated frame certificates; the reference has no kernel, and
    its frame is its run with the result dropped.
  * `preserves`: the idealization rewrote nothing, so the conjunct is `True`.
  * `algebraic`: on the extended reals both results are ONE function of the two argument arrays, `BoxSpec.meanIou` —
    the kernel's by `KernelIdeal.Mean.run` (the fold of the per-block steps; the blocks' shares add up to the totals
    because addition of extended reals is commutative and associative), the reference's by `RefValue.result_eq` (box by
    box the same ratio and weight: dividing an extent by 2 is multiplying it by ½ for every extended real, and "all four
    numbers equal −1" decided by a conjunction of bits or by a minimum of 0/1 indicators is the same bit). The
    precondition (finite inputs) is never used.
-/
import proofs.«158714_j88493506166986_2_alg».proof.Defs
import proofs.«158714_j88493506166986_2_alg».proof.Proof.Gen.Kernel
import proofs.«158714_j88493506166986_2_alg».proof.Proof.Gen.Kernel.Skeleton
import proofs.«158714_j88493506166986_2_alg».proof.Proof.Gen.Kernel.Launch
import proofs.«158714_j88493506166986_2_alg».proof.Proof.Gen.Kernel.Points
import proofs.«158714_j88493506166986_2_alg».proof.Proof.Gen.Kernel.Frame
import proofs.«158714_j88493506166986_2_alg».proof.Proof.Gen.KernelIdeal
import proofs.«158714_j88493506166986_2_alg».proof.Proof.Gen.KernelIdeal.Skeleton
import proofs.«158714_j88493506166986_2_alg».proof.Proof.Gen.KernelIdeal.Launch
import proofs.«158714_j88493506166986_2_alg».proof.Proof.Gen.KernelIdeal.Points
import proofs.«158714_j88493506166986_2_alg».proof.Proof.Gen.KernelIdeal.Frame
import proofs.«158714_j88493506166986_2_alg».proof.Proof.Gen.ReferenceIdeal
import proofs.«158714_j88493506166986_2_alg».proof.Proof.Gen.Pre_finite_inputs
import proofs.«158714_j88493506166986_2_alg».proof.Proof.Gen.KernelIdeal.Value
import proofs.«158714_j88493506166986_2_alg».proof.Proof.RefRun
import proofs.«158714_j88493506166986_2_alg».proof.Proof.RefRead
import Idealize.ShloMosaic.Adequacy
import Idealize.ShloMosaic.Init
import proofs.«158714_j88493506166986_2_alg».proof.Proof.BoxSpec
import proofs.«158714_j88493506166986_2_alg».proof.Proof.KernelValue
import proofs.«158714_j88493506166986_2_alg».proof.Proof.RefValue

noncomputable section

namespace Cert.Proof

open Idealize.ShloMosaic Idealize.SL.Sem

theorem frame_k : Cert.frame_Kernel := fun m ρ _ => Cert.Kernel.Gen.frame m ρ

theorem frame_ki : Cert.frame_KernelIdeal := fun m ρ _ => Cert.KernelIdeal.Gen.frame m ρ

/-- The reference's frame: its run, the result forgotten. -/
theorem frame_ri : Cert.frame_ReferenceIdeal := fun m ρ _ =>
  (θ_run Cert.ReferenceIdeal.defs _ _).mono (fun _ h c => (h c).2) (Cert.ReferenceIdeal.ValueP.run (F := Ideal) m ρ)

/-- The idealization rewrote no operation. -/
theorem preserves : Cert.preserves_Kernel_KernelIdeal := trivial

/-- On the extended reals the kernel's result array ends at the mean intersection over union of its arguments, and the
    reference's, run from arguments that agree, at the same function of the same arrays. -/
theorem algebraic : Cert.algebraic_KernelIdeal_ReferenceIdeal := by
  intro m ρ m' ρ' _ hagree
  refine ⟨fun c => Cert.BoxSpec.meanIou (Cert.KernelIdeal.Mean.argP m c) (Cert.KernelIdeal.Mean.argT m c),
    Cert.KernelIdeal.Mean.run m ρ, ?_⟩
  refine (θ_run Cert.ReferenceIdeal.defs _ _).mono (fun _ h c => ⟨(h c).1.trans ?_, (h c).2⟩)
    (Cert.ReferenceIdeal.ValueP.run (F := Ideal) m' ρ')
  rw [Cert.ReferenceIdeal.ReadP.val_main_v90_eq, Cert.ReferenceIdeal.RefValue.result_eq, (hagree c).1, (hagree c).2]

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
